-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S10x64 : Shape := ⟨2, ![10, 64]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S10x64 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S10x64 .f32 := Host.absf main_arg17
  let main_cst_28 : FVec F S_ .f32 := constant S_ .f32 0x7F800000#32
  let main_v75 : FVec F S10x64 .f32 := broadcastInDim S10x64 ![] bcast_S_S10x64 main_cst_28
  let main_v76 : IVec S10x64 1 := cmpf .olt main_v74 main_v75
  let main_c_29 : IVec S_ 1 := constantI S_ 1 1#1
  let main_v77 : IVec S_ 1 := (fun x v => Host.reduce IntOp.andi x v reducesTo_S10x64_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S64x128 .f32) (main_arg16 : FVec F S64 .f32) (main_arg17 : FVec F S10x64 .f32) (main_arg18 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S64x128 .f32) (main_arg16 : FVec F S64 .f32) (main_arg17 : FVec F S10x64 .f32) (main_arg18 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_v48 main_v49 main_v50

def fn_part1 {F : FTy → Type} [FloatOps F] (main_arg6 : FVec F S128x64 .f32) (main_arg7 : FVec F S128x64 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S64x128 .f32) (main_arg16 : FVec F S64 .f32) (main_arg17 : FVec F S10x64 .f32) (main_arg18 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : IVec S100000 32) (main_arg3 : FVec F S64x64 .f32) (main_arg4 : FVec F S64x64 .f32) (main_arg5 : FVec F S64 .f32) (main_arg6 : FVec F S128x64 .f32) (main_arg7 : FVec F S128x64 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S64x128 .f32) (main_arg16 : FVec F S64 .f32) (main_arg17 : FVec F S10x64 .f32) (main_arg18 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S4000x64 : Shape := ⟨2, ![4000, 64]⟩
abbrev S1x128 : Shape := ⟨2, ![1, 128]⟩
abbrev S100000x128 : Shape := ⟨2, ![100000, 128]⟩
abbrev S4000x128 : Shape := ⟨2, ![4000, 128]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S64x10 : Shape := ⟨2, ![64, 10]⟩
abbrev S1x10 : Shape := ⟨2, ![1, 10]⟩
abbrev S512x10 : Shape := ⟨2, ![512, 10]⟩
abbrev S512x64 : Shape := ⟨2, ![512, 64]⟩

abbrev nBuf : Space → Nat
  | .hbm => 131
  | .vmem => 42
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64x64, .f32⟩
  | 5 => ⟨S64, .f32⟩
  | 6 => ⟨S128x64, .f32⟩
  | 7 => ⟨S128x64, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S64x128, .f32⟩
  | 16 => ⟨S64, .f32⟩
  | 17 => ⟨S10x64, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S100000x64, .bf16⟩
  | 37 => ⟨S100000x64, .bf16⟩
  | 38 => ⟨S64x64, .f32⟩
  | 39 => ⟨S64x64, .bf16⟩
  | 40 => ⟨S64x64, .f32⟩
  | 41 => ⟨S64x64, .bf16⟩
  | 42 => ⟨S1x64, .f32⟩
  | 43 => ⟨S100000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S_, .f32⟩
  | 54 => ⟨S100000x64, .f32⟩
  | 55 => ⟨S1600000x1, .i32⟩
  | 56 => ⟨S100000x64, .f32⟩
  | 57 => ⟨S100000x64, .bf16⟩
  | 58 => ⟨S100000x64, .bf16⟩
  | 59 => ⟨S64x128, .f32⟩
  | 60 => ⟨S64x128, .bf16⟩
  | 61 => ⟨S64x128, .f32⟩
  | 62 => ⟨S64x128, .bf16⟩
  | 63 => ⟨S1x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .bf16⟩
  | 79 => ⟨S100000x128, .bf16⟩
  | 80 => ⟨S128x128, .f32⟩
  | 81 => ⟨S128x128, .bf16⟩
  | 82 => ⟨S128x128, .f32⟩
  | 83 => ⟨S128x128, .bf16⟩
  | 84 => ⟨S1x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x128, .bf16⟩
  | 100 => ⟨S100000x128, .bf16⟩
  | 101 => ⟨S128x128, .f32⟩
  | 102 => ⟨S128x128, .bf16⟩
  | 103 => ⟨S128x128, .f32⟩
  | 104 => ⟨S128x128, .bf16⟩
  | 105 => ⟨S1x128, .f32⟩
  | 106 => ⟨S100000x128, .f32⟩
  | 107 => ⟨S_, .f32⟩
  | 108 => ⟨S512x128, .f32⟩
  | 109 => ⟨S100000x1, .i32⟩
  | 110 => ⟨S512x128, .f32⟩
  | 111 => ⟨S_, .f32⟩
  | 112 => ⟨S100000, .f32⟩
  | 113 => ⟨S_, .f32⟩
  | 114 => ⟨S512, .f32⟩
  | 115 => ⟨S100000x1, .i32⟩
  | 116 => ⟨S512, .f32⟩
  | 117 => ⟨S_, .f32⟩
  | 118 => ⟨S512, .f32⟩
  | 119 => ⟨S512, .f32⟩
  | 120 => ⟨S512x1, .f32⟩
  | 121 => ⟨S512x128, .f32⟩
  | 122 => ⟨S512x128, .f32⟩
  | 123 => ⟨S512x128, .bf16⟩
  | 124 => ⟨S128x64, .f32⟩
  | 125 => ⟨S128x64, .bf16⟩
  | 126 => ⟨S64x10, .f32⟩
  | 127 => ⟨S64x10, .bf16⟩
  | _ => ⟨S100000x64, .f32⟩

abbrev hbmTy0_1 (i : Nat) : BufTy := match i % 128 with
  | 0 => ⟨S1x64, .f32⟩
  | 1 => ⟨S1x10, .f32⟩
  | 2 => ⟨S512x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .bf16⟩
  | .local _ .vmem, ⟨10, _⟩ => ⟨S4000x64, .bf16⟩
  | .local _ .vmem, ⟨11, _⟩ => ⟨S4000x64, .bf16⟩
  | .local _ .vmem, ⟨12, _⟩ => ⟨S4000x64, .bf16⟩
  | .local _ .vmem, ⟨13, _⟩ => ⟨S64x128, .bf16⟩
  | .local _ .vmem, ⟨14, _⟩ => ⟨S64x128, .bf16⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .bf16⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S4000x128, .bf16⟩
  | .local _ .vmem, ⟨28, _⟩ => ⟨S4000x128, .bf16⟩
  | .local _ .vmem, ⟨29, _⟩ => ⟨S4000x128, .bf16⟩
  | .local _ .vmem, ⟨30, _⟩ => ⟨S4000x128, .bf16⟩
  | .local _ .vmem, ⟨31, _⟩ => ⟨S128x128, .bf16⟩
  | .local _ .vmem, ⟨32, _⟩ => ⟨S128x128, .bf16⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S512x128, .bf16⟩
  | .local _ .vmem, ⟨37, _⟩ => ⟨S128x64, .bf16⟩
  | .local _ .vmem, ⟨38, _⟩ => ⟨S1x64, .f32⟩
  | .local _ .vmem, ⟨39, _⟩ => ⟨S64x10, .bf16⟩
  | .local _ .vmem, ⟨40, _⟩ => ⟨S1x10, .f32⟩
  | .local _ .vmem, ⟨41, _⟩ => ⟨S512x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_4 : Ref sig .tc := ⟨.hbm, 65, rfl⟩
abbrev main_v40 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_7 : Ref sig .tc := ⟨.hbm, 86, rfl⟩
abbrev main_v58 : Ref sig .tc := ⟨.hbm, 87, rfl⟩
abbrev main_v59 : Ref sig .tc := ⟨.hbm, 88, rfl⟩
abbrev main_c_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_11 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bitsLt_bf16_f32 : FTy.bits .bf16 < FTy.bits .f32
  transposes_S64x64_S64x64_1_0 : S64x64.Transposes [1, 0] S64x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  transposes_S128x64_S64x128_1_0 : S128x64.Transposes [1, 0] S64x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  transposes_S128x128_S128x128_1_0 : S128x128.Transposes [1, 0] S128x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S64x128_S128x64_1_0 : S64x128.Transposes [1, 0] S128x64
  transposes_S10x64_S64x10_1_0 : S10x64.Transposes [1, 0] S64x10
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S512x64 : S1x64.Broadcasts S512x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .bf16 = 32 ∨ (Rect.block (s := S100000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .bf16 = 32 ∨ (Rect.block (s := S100000x64) S4000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .bf16 = 32 ∨ (Rect.block (s := S100000x64) S4000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .bf16 = 32 ∨ (Rect.block (s := S100000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .bf16 = 32 ∨ (Rect.block (s := S100000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .bf16 = 32 ∨ (Rect.block (s := S100000x128) S4000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .bf16 = 32 ∨ (Rect.block (s := S512x128) S512x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .bf16 = 32 ∨ (Rect.block (s := S128x64) S128x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .bf16 = 32 ∨ (Rect.block (s := S64x10) S64x10.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S512x10.size a
  hwx4_5 : ∀ i : grid4.Coords, EltTy.bits .f32 = 32 ∨ (Rect.block (s := S512x10) S512x10.size (cc4_transform_5 i) (hinb4_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v14) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v88) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v90) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S64x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S512x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x64 : Shape := ⟨2, ![512, 64]⟩
abbrev S64x10 : Shape := ⟨2, ![64, 10]⟩
abbrev S512x10 : Shape := ⟨2, ![512, 10]⟩
abbrev S1x10 : Shape := ⟨2, ![1, 10]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64x64, .f32⟩
  | 5 => ⟨S64, .f32⟩
  | 6 => ⟨S128x64, .f32⟩
  | 7 => ⟨S128x64, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S64x128, .f32⟩
  | 16 => ⟨S64, .f32⟩
  | 17 => ⟨S10x64, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S64x64, .f32⟩
  | 37 => ⟨S100000x64, .f32⟩
  | 38 => ⟨S64x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S64x128, .f32⟩
  | 61 => ⟨S100000x128, .f32⟩
  | 62 => ⟨S64x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S128x128, .f32⟩
  | 85 => ⟨S100000x128, .f32⟩
  | 86 => ⟨S128x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S128x128, .f32⟩
  | 109 => ⟨S100000x128, .f32⟩
  | 110 => ⟨S128x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S512x128, .f32⟩
  | 118 => ⟨S100000x1, .i32⟩
  | 119 => ⟨S512x128, .f32⟩
  | 120 => ⟨S_, .f32⟩
  | 121 => ⟨S100000, .f32⟩
  | 122 => ⟨S_, .f32⟩
  | 123 => ⟨S512, .f32⟩
  | 124 => ⟨S100000x1, .i32⟩
  | 125 => ⟨S512, .f32⟩
  | 126 => ⟨S_, .f32⟩
  | 127 => ⟨S512, .f32⟩
  | _ => ⟨S100000x64, .f32⟩

abbrev hbmTy0_1 (i : Nat) : BufTy := match i % 128 with
  | 0 => ⟨S512, .f32⟩
  | 1 => ⟨S512x1, .f32⟩
  | 2 => ⟨S512x128, .f32⟩
  | 3 => ⟨S512x128, .f32⟩
  | 4 => ⟨S128x64, .f32⟩
  | 5 => ⟨S512x64, .f32⟩
  | 6 => ⟨S1x64, .f32⟩
  | 7 => ⟨S512x64, .f32⟩
  | 8 => ⟨S512x64, .f32⟩
  | 9 => ⟨S64x10, .f32⟩
  | 10 => ⟨S512x10, .f32⟩
  | 11 => ⟨S1x10, .f32⟩
  | 12 => ⟨S512x10, .f32⟩
  | 13 => ⟨S512x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call0_cst : Ref sig .tc := ⟨.hbm, 44, rfl⟩
abbrev main_call0_v0 : Ref sig .tc := ⟨.hbm, 45, rfl⟩
abbrev main_v22 : Ref sig .tc := ⟨.hbm, 46, rfl⟩
abbrev main_c_1 : Ref sig .tc := ⟨.hbm, 47, rfl⟩
abbrev main_v23 : Ref sig .tc := ⟨.hbm, 48, rfl⟩
abbrev main_v24 : Ref sig .tc := ⟨.hbm, 49, rfl⟩
abbrev main_c_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_cst : Ref sig .tc := ⟨.hbm, 68, rfl⟩
abbrev main_call1_v0 : Ref sig .tc := ⟨.hbm, 69, rfl⟩
abbrev main_v41 : Ref sig .tc := ⟨.hbm, 70, rfl⟩
abbrev main_c_4 : Ref sig .tc := ⟨.hbm, 71, rfl⟩
abbrev main_v42 : Ref sig .tc := ⟨.hbm, 72, rfl⟩
abbrev main_v43 : Ref sig .tc := ⟨.hbm, 73, rfl⟩
abbrev main_c_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_v60 : Ref sig .tc := ⟨.hbm, 94, rfl⟩
abbrev main_c_7 : Ref sig .tc := ⟨.hbm, 95, rfl⟩
abbrev main_v61 : Ref sig .tc := ⟨.hbm, 96, rfl⟩
abbrev main_v62 : Ref sig .tc := ⟨.hbm, 97, rfl⟩
abbrev main_c_8 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_9 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_10 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_11 : Ref sig .tc := ⟨.hbm, 120, rfl⟩
abbrev main_v82 : Ref sig .tc := ⟨.hbm, 121, rfl⟩
abbrev main_cst_12 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_13 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S64x128_S128x64_1_0 : S64x128.Transposes [1, 0] S128x64
  bcast_S1x64_S512x64_0_1 : S1x64.BroadcastsInDim S512x64 (![0, 1] : Fin 2 → Fin S512x64.rank)
  transposes_S10x64_S64x10_1_0 : S10x64.Transposes [1, 0] S64x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.RunValue.lean ====
/-
  The idealized kernel's run with its RESULT named.  Every weakly fair execution of the five-region program
  terminates without a fault; the argument arrays end as launched, and the result array ends at the contents of
  the last segment boundary: the fold of the host stretches and of the five regions' write-backs over the launch
  memory, read at the result buffer.  The segments, their thread states and the boundary contents are the frame's;
  only the final reading differs: the result buffer is read beside the arguments.
-/
import proofs.«153316_j43207370998446_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of the whole program: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.RunValue

end
-- ==== Proof.Dots.lean ====
/-
  Matrix products as plain sums.  At the exact-real reading both the kernel's `tpu.matmul` into a zero accumulator
  and the host's `dot_general` are, entry by entry, the sum over the contracted axis of products of one row of the
  left operand with one column of the right operand.  This module re-indexes that sum, for each of the program's
  dot records (a 4000-row block or the whole 100000-row array against a weight matrix; the two products of the
  classifier head), by a plain `k < K`: `(a · b)[r, c] = ∑ k, a[r, k] · b[k, c]`.
-/
import proofs.«153316_j43207370998446_1_alg».proof.KernelIdeal
import proofs.«153316_j43207370998446_1_alg».proof.ReferenceIdeal
import proofs.«153316_j43207370998446_1_alg».proof.Proof.Gen.KernelIdeal
import proofs.«153316_j43207370998446_1_alg».proof.Proof.Gen.ReferenceIdeal
import Idealize.ShloMosaic.Lib.ValueIdx
import Idealize.ShloMosaic.Lib.Pipeline.Value
import Idealize.ShloMosaic.PureOps.Ideal.Laws

noncomputable section

namespace Cert.Bridge.Dots

open Idealize.ShloMosaic Idealize.ShloMosaic.TcCoe

section Kernel
open Cert.KernelIdeal Cert.KernelIdeal.Gen

/-! ### `dot_S4000x64_S64x64_S4000x64_1_0_0_1_n_n`: rows of the left operand against columns of the right -/

theorem kd0_lhs0 (i : S4000x64.Idx) (q : Cert.KernelIdeal.dot_S4000x64_S64x64_S4000x64_1_0_0_1_n_n.contr.Idx) : (Cert.KernelIdeal.dot_S4000x64_S64x64_S4000x64_1_0_0_1_n_n.lhsIdx i q 0).val = (i 0).val := by
  unfold DotDims.lhsIdx
  rw [dif_neg (show ¬(0 : Fin S4000x64.rank) ∈ Cert.KernelIdeal.dot_S4000x64_S64x64_S4000x64_1_0_0_1_n_n.lhsBatch by decide), dif_pos (show (0 : Fin S4000x64.rank) ∈ Cert.KernelIdeal.dot_S4000x64_S64x64_S4000x64_1_0_0_1_n_n.lhsNonContracting by decide)]
  rfl
theorem kd0_lhs1 (i : S4000x64.Idx) (q : Cert.KernelIdeal.dot_S4000x64_S64x64_S4000x64_1_0_0_1_n_n.contr.Idx) : (Cert.KernelIdeal.dot_S4000x64_S64x64_S4000x64_1_0_0_1_n_n.lhsIdx i q 1).val = (q ⟨0, by decide⟩).val :=
  Cert.KernelIdeal.dot_S4000x64_S64x64_S4000x64_1_0_0_1_n_n.lhsIdx_val_of_single rfl i q
theorem kd0_rhs0 (i : S4000x64.Idx) (q : Cert.KernelIdeal.dot_S4000x64_S64x64_S4000x64_1_0_0_1_n_n.contr.Idx) : (Cert.KernelIdeal.dot_S4000x64_S64x64_S4000x64_1_0_0_1_n_n.rhsIdx i q 0).val = (q ⟨0, by decide⟩).val :=
  Cert.KernelIdeal.dot_S4000x64_S64x64_S4000x64_1_0_0_1_n_n.rhsIdx_val_of_single rfl i q
theorem kd0_rhs1 (i : S4000x64.Idx) (q : Cert.KernelIdeal.dot_S4000x64_S64x64_S4000x64_1_0_0_1_n_n.contr.Idx) : (Cert.KernelIdeal.dot_S4000x64_S64x64_S4000x64_1_0_0_1_n_n.rhsIdx i q 1).val = (i 1).val := by
  unfold DotDims.rhsIdx
  rw [dif_neg (show ¬(1 : Fin S64x64.rank) ∈ Cert.KernelIdeal.dot_S4000x64_S64x64_S4000x64_1_0_0_1_n_n.rhsBatch by decide), dif_pos (show (1 : Fin S64x64.rank) ∈ Cert.KernelIdeal.dot_S4000x64_S64x64_S4000x64_1_0_0_1_n_n.rhsNonContracting by decide)]
  rfl
/-- Entry `(row of i, k)` of the left operand. -/
abbrev kd0_l (i : S4000x64.Idx) (k : Fin 64) : S4000x64.Idx := fun a => match a with
  | ⟨0, _⟩ => ⟨(i 0).val, (i 0).isLt⟩
  | ⟨1, _⟩ => ⟨k.val, k.isLt⟩
/-- Entry `(k, column of i)` of the right operand. -/
abbrev kd0_r (i : S4000x64.Idx) (k : Fin 64) : S64x64.Idx := fun a => match a with
  | ⟨0, _⟩ => ⟨k.val, k.isLt⟩
  | ⟨1, _⟩ => ⟨(i 1).val, (i 1).isLt⟩
/-- The contraction, re-indexed by `k < 64`: entry `i` of the product is `∑ k, a[row i, k] · b[k, col i]`. -/
theorem kd0_sum (a : S4000x64.Idx → EReal) (b : S64x64.Idx → EReal) (i : S4000x64.Idx) :
    ∑ q : Cert.KernelIdeal.dot_S4000x64_S64x64_S4000x64_1_0_0_1_n_n.contr.Idx, a (Cert.KernelIdeal.dot_S4000x64_S64x64_S4000x64_1_0_0_1_n_n.lhsIdx i q) * b (Cert.KernelIdeal.dot_S4000x64_S64x64_S4000x64_1_0_0_1_n_n.rhsIdx i q)
      = ∑ k : Fin 64, a (kd0_l i k) * b (kd0_r i k) := by
  rw [← Equiv.sum_comp (ValueIdx.contrEquiv1 Cert.KernelIdeal.dot_S4000x64_S64x64_S4000x64_1_0_0_1_n_n 64 rfl rfl).symm]
  refine Finset.sum_congr rfl fun k _ => ?_
  have hk := ValueIdx.contrEquiv1_symm_val Cert.KernelIdeal.dot_S4000x64_S64x64_S4000x64_1_0_0_1_n_n 64 rfl rfl k
  have el : Cert.KernelIdeal.dot_S4000x64_S64x64_S4000x64_1_0_0_1_n_n.lhsIdx i ((ValueIdx.contrEquiv1 Cert.KernelIdeal.dot_S4000x64_S64x64_S4000x64_1_0_0_1_n_n 64 rfl rfl).symm k) = kd0_l i k := funext fun a => Fin.ext (by
    match a with
    | ⟨0, _⟩ => exact kd0_lhs0 _ _
    | ⟨1, _⟩ => exact (kd0_lhs1 _ _).trans hk)
  have er : Cert.KernelIdeal.dot_S4000x64_S64x64_S4000x64_1_0_0_1_n_n.rhsIdx i ((ValueIdx.contrEquiv1 Cert.KernelIdeal.dot_S4000x64_S64x64_S4000x64_1_0_0_1_n_n 64 rfl rfl).symm k) = kd0_r i k := funext fun a => Fin.ext (by
    match a with
    | ⟨0, _⟩ => exact (kd0_rhs0 _ _).trans hk
    | ⟨1, _⟩ => exact kd0_rhs1 _ _)
  rw [el, er]

/-! ### `dot_S4000x64_S64x128_S4000x128_1_0_0_1_n_n`: rows of the left operand against columns of the right -/

theorem kd1_lhs0 (i : S4000x128.Idx) (q : Cert.KernelIdeal.dot_S4000x64_S64x128_S4000x128_1_0_0_1_n_n.contr.Idx) : (Cert.KernelIdeal.dot_S4000x64_S64x128_S4000x128_1_0_0_1_n_n.lhsIdx i q 0).val = (i 0).val := by
  unfold DotDims.lhsIdx
  rw [dif_neg (show ¬(0 : Fin S4000x64.rank) ∈ Cert.KernelIdeal.dot_S4000x64_S64x128_S4000x128_1_0_0_1_n_n.lhsBatch by decide), dif_pos (show (0 : Fin S4000x64.rank) ∈ Cert.KernelIdeal.dot_S4000x64_S64x128_S4000x128_1_0_0_1_n_n.lhsNonContracting by decide)]
  rfl
theorem kd1_lhs1 (i : S4000x128.Idx) (q : Cert.KernelIdeal.dot_S4000x64_S64x128_S4000x128_1_0_0_1_n_n.contr.Idx) : (Cert.KernelIdeal.dot_S4000x64_S64x128_S4000x128_1_0_0_1_n_n.lhsIdx i q 1).val = (q ⟨0, by decide⟩).val :=
  Cert.KernelIdeal.dot_S4000x64_S64x128_S4000x128_1_0_0_1_n_n.lhsIdx_val_of_single rfl i q
theorem kd1_rhs0 (i : S4000x128.Idx) (q : Cert.KernelIdeal.dot_S4000x64_S64x128_S4000x128_1_0_0_1_n_n.contr.Idx) : (Cert.KernelIdeal.dot_S4000x64_S64x128_S4000x128_1_0_0_1_n_n.rhsIdx i q 0).val = (q ⟨0, by decide⟩).val :=
  Cert.KernelIdeal.dot_S4000x64_S64x128_S4000x128_1_0_0_1_n_n.rhsIdx_val_of_single rfl i q
theorem kd1_rhs1 (i : S4000x128.Idx) (q : Cert.KernelIdeal.dot_S4000x64_S64x128_S4000x128_1_0_0_1_n_n.contr.Idx) : (Cert.KernelIdeal.dot_S4000x64_S64x128_S4000x128_1_0_0_1_n_n.rhsIdx i q 1).val = (i 1).val := by
  unfold DotDims.rhsIdx
  rw [dif_neg (show ¬(1 : Fin S64x128.rank) ∈ Cert.KernelIdeal.dot_S4000x64_S64x128_S4000x128_1_0_0_1_n_n.rhsBatch by decide), dif_pos (show (1 : Fin S64x128.rank) ∈ Cert.KernelIdeal.dot_S4000x64_S64x128_S4000x128_1_0_0_1_n_n.rhsNonContracting by decide)]
  rfl
/-- Entry `(row of i, k)` of the left operand. -/
abbrev kd1_l (i : S4000x128.Idx) (k : Fin 64) : S4000x64.Idx := fun a => match a with
  | ⟨0, _⟩ => ⟨(i 0).val, (i 0).isLt⟩
  | ⟨1, _⟩ => ⟨k.val, k.isLt⟩
/-- Entry `(k, column of i)` of the right operand. -/
abbrev kd1_r (i : S4000x128.Idx) (k : Fin 64) : S64x128.Idx := fun a => match a with
  | ⟨0, _⟩ => ⟨k.val, k.isLt⟩
  | ⟨1, _⟩ => ⟨(i 1).val, (i 1).isLt⟩
/-- The contraction, re-indexed by `k < 64`: entry `i` of the product is `∑ k, a[row i, k] · b[k, col i]`. -/
theorem kd1_sum (a : S4000x64.Idx → EReal) (b : S64x128.Idx → EReal) (i : S4000x128.Idx) :
    ∑ q : Cert.KernelIdeal.dot_S4000x64_S64x128_S4000x128_1_0_0_1_n_n.contr.Idx, a (Cert.KernelIdeal.dot_S4000x64_S64x128_S4000x128_1_0_0_1_n_n.lhsIdx i q) * b (Cert.KernelIdeal.dot_S4000x64_S64x128_S4000x128_1_0_0_1_n_n.rhsIdx i q)
      = ∑ k : Fin 64, a (kd1_l i k) * b (kd1_r i k) := by
  rw [← Equiv.sum_comp (ValueIdx.contrEquiv1 Cert.KernelIdeal.dot_S4000x64_S64x128_S4000x128_1_0_0_1_n_n 64 rfl rfl).symm]
  refine Finset.sum_congr rfl fun k _ => ?_
  have hk := ValueIdx.contrEquiv1_symm_val Cert.KernelIdeal.dot_S4000x64_S64x128_S4000x128_1_0_0_1_n_n 64 rfl rfl k
  have el : Cert.KernelIdeal.dot_S4000x64_S64x128_S4000x128_1_0_0_1_n_n.lhsIdx i ((ValueIdx.contrEquiv1 Cert.KernelIdeal.dot_S4000x64_S64x128_S4000x128_1_0_0_1_n_n 64 rfl rfl).symm k) = kd1_l i k := funext fun a => Fin.ext (by
    match a with
    | ⟨0, _⟩ => exact kd1_lhs0 _ _
    | ⟨1, _⟩ => exact (kd1_lhs1 _ _).trans hk)
  have er : Cert.KernelIdeal.dot_S4000x64_S64x128_S4000x128_1_0_0_1_n_n.rhsIdx i ((ValueIdx.contrEquiv1 Cert.KernelIdeal.dot_S4000x64_S64x128_S4000x128_1_0_0_1_n_n 64 rfl rfl).symm k) = kd1_r i k := funext fun a => Fin.ext (by
    match a with
    | ⟨0, _⟩ => exact (kd1_rhs0 _ _).trans hk
    | ⟨1, _⟩ => exact kd1_rhs1 _ _)
  rw [el, er]

/-! ### `dot_S4000x128_S128x128_S4000x128_1_0_0_1_n_n`: rows of the left operand against columns of the right -/

theorem kd2_lhs0 (i : S4000x128.Idx) (q : Cert.KernelIdeal.dot_S4000x128_S128x128_S4000x128_1_0_0_1_n_n.contr.Idx) : (Cert.KernelIdeal.dot_S4000x128_S128x128_S4000x128_1_0_0_1_n_n.lhsIdx i q 0).val = (i 0).val := by
  unfold DotDims.lhsIdx
  rw [dif_neg (show ¬(0 : Fin S4000x128.rank) ∈ Cert.KernelIdeal.dot_S4000x128_S128x128_S4000x128_1_0_0_1_n_n.lhsBatch by decide), dif_pos (show (0 : Fin S4000x128.rank) ∈ Cert.KernelIdeal.dot_S4000x128_S128x128_S4000x128_1_0_0_1_n_n.lhsNonContracting by decide)]
  rfl
theorem kd2_lhs1 (i : S4000x128.Idx) (q : Cert.KernelIdeal.dot_S4000x128_S128x128_S4000x128_1_0_0_1_n_n.contr.Idx) : (Cert.KernelIdeal.dot_S4000x128_S128x128_S4000x128_1_0_0_1_n_n.lhsIdx i q 1).val = (q ⟨0, by decide⟩).val :=
  Cert.KernelIdeal.dot_S4000x128_S128x128_S4000x128_1_0_0_1_n_n.lhsIdx_val_of_single rfl i q
theorem kd2_rhs0 (i : S4000x128.Idx) (q : Cert.KernelIdeal.dot_S4000x128_S128x128_S4000x128_1_0_0_1_n_n.contr.Idx) : (Cert.KernelIdeal.dot_S4000x128_S128x128_S4000x128_1_0_0_1_n_n.rhsIdx i q 0).val = (q ⟨0, by decide⟩).val :=
  Cert.KernelIdeal.dot_S4000x128_S128x128_S4000x128_1_0_0_1_n_n.rhsIdx_val_of_single rfl i q
theorem kd2_rhs1 (i : S4000x128.Idx) (q : Cert.KernelIdeal.dot_S4000x128_S128x128_S4000x128_1_0_0_1_n_n.contr.Idx) : (Cert.KernelIdeal.dot_S4000x128_S128x128_S4000x128_1_0_0_1_n_n.rhsIdx i q 1).val = (i 1).val := by
  unfold DotDims.rhsIdx
  rw [dif_neg (show ¬(1 : Fin S128x128.rank) ∈ Cert.KernelIdeal.dot_S4000x128_S128x128_S4000x128_1_0_0_1_n_n.rhsBatch by decide), dif_pos (show (1 : Fin S128x128.rank) ∈ Cert.KernelIdeal.dot_S4000x128_S128x128_S4000x128_1_0_0_1_n_n.rhsNonContracting by decide)]
  rfl
/-- Entry `(row of i, k)` of the left operand. -/
abbrev kd2_l (i : S4000x128.Idx) (k : Fin 128) : S4000x128.Idx := fun a => match a with
  | ⟨0, _⟩ => ⟨(i 0).val, (i 0).isLt⟩
  | ⟨1, _⟩ => ⟨k.val, k.isLt⟩
/-- Entry `(k, column of i)` of the right operand. -/
abbrev kd2_r (i : S4000x128.Idx) (k : Fin 128) : S128x128.Idx := fun a => match a with
  | ⟨0, _⟩ => ⟨k.val, k.isLt⟩
  | ⟨1, _⟩ => ⟨(i 1).val, (i 1).isLt⟩
/-- The contraction, re-indexed by `k < 128`: entry `i` of the product is `∑ k, a[row i, k] · b[k, col i]`. -/
theorem kd2_sum (a : S4000x128.Idx → EReal) (b : S128x128.Idx → EReal) (i : S4000x128.Idx) :
    ∑ q : Cert.KernelIdeal.dot_S4000x128_S128x128_S4000x128_1_0_0_1_n_n.contr.Idx, a (Cert.KernelIdeal.dot_S4000x128_S128x128_S4000x128_1_0_0_1_n_n.lhsIdx i q) * b (Cert.KernelIdeal.dot_S4000x128_S128x128_S4000x128_1_0_0_1_n_n.rhsIdx i q)
      = ∑ k : Fin 128, a (kd2_l i k) * b (kd2_r i k) := by
  rw [← Equiv.sum_comp (ValueIdx.contrEquiv1 Cert.KernelIdeal.dot_S4000x128_S128x128_S4000x128_1_0_0_1_n_n 128 rfl rfl).symm]
  refine Finset.sum_congr rfl fun k _ => ?_
  have hk := ValueIdx.contrEquiv1_symm_val Cert.KernelIdeal.dot_S4000x128_S128x128_S4000x128_1_0_0_1_n_n 128 rfl rfl k
  have el : Cert.KernelIdeal.dot_S4000x128_S128x128_S4000x128_1_0_0_1_n_n.lhsIdx i ((ValueIdx.contrEquiv1 Cert.KernelIdeal.dot_S4000x128_S128x128_S4000x128_1_0_0_1_n_n 128 rfl rfl).symm k) = kd2_l i k := funext fun a => Fin.ext (by
    match a with
    | ⟨0, _⟩ => exact kd2_lhs0 _ _
    | ⟨1, _⟩ => exact (kd2_lhs1 _ _).trans hk)
  have er : Cert.KernelIdeal.dot_S4000x128_S128x128_S4000x128_1_0_0_1_n_n.rhsIdx i ((ValueIdx.contrEquiv1 Cert.KernelIdeal.dot_S4000x128_S128x128_S4000x128_1_0_0_1_n_n 128 rfl rfl).symm k) = kd2_r i k := funext fun a => Fin.ext (by
    match a with
    | ⟨0, _⟩ => exact (kd2_rhs0 _ _).trans hk
    | ⟨1, _⟩ => exact kd2_rhs1 _ _)
  rw [el, er]

/-! ### `dot_S512x128_S128x64_S512x64_1_0_0_1_n_n`: rows of the left operand against columns of the right -/

theorem kd4a_lhs0 (i : S512x64.Idx) (q : Cert.KernelIdeal.dot_S512x128_S128x64_S512x64_1_0_0_1_n_n.contr.Idx) : (Cert.KernelIdeal.dot_S512x128_S128x64_S512x64_1_0_0_1_n_n.lhsIdx i q 0).val = (i 0).val := by
  unfold DotDims.lhsIdx
  rw [dif_neg (show ¬(0 : Fin S512x128.rank) ∈ Cert.KernelIdeal.dot_S512x128_S128x64_S512x64_1_0_0_1_n_n.lhsBatch by decide), dif_pos (show (0 : Fin S512x128.rank) ∈ Cert.KernelIdeal.dot_S512x128_S128x64_S512x64_1_0_0_1_n_n.lhsNonContracting by decide)]
  rfl
theorem kd4a_lhs1 (i : S512x64.Idx) (q : Cert.KernelIdeal.dot_S512x128_S128x64_S512x64_1_0_0_1_n_n.contr.Idx) : (Cert.KernelIdeal.dot_S512x128_S128x64_S512x64_1_0_0_1_n_n.lhsIdx i q 1).val = (q ⟨0, by decide⟩).val :=
  Cert.KernelIdeal.dot_S512x128_S128x64_S512x64_1_0_0_1_n_n.lhsIdx_val_of_single rfl i q
theorem kd4a_rhs0 (i : S512x64.Idx) (q : Cert.KernelIdeal.dot_S512x128_S128x64_S512x64_1_0_0_1_n_n.contr.Idx) : (Cert.KernelIdeal.dot_S512x128_S128x64_S512x64_1_0_0_1_n_n.rhsIdx i q 0).val = (q ⟨0, by decide⟩).val :=
  Cert.KernelIdeal.dot_S512x128_S128x64_S512x64_1_0_0_1_n_n.rhsIdx_val_of_single rfl i q
theorem kd4a_rhs1 (i : S512x64.Idx) (q : Cert.KernelIdeal.dot_S512x128_S128x64_S512x64_1_0_0_1_n_n.contr.Idx) : (Cert.KernelIdeal.dot_S512x128_S128x64_S512x64_1_0_0_1_n_n.rhsIdx i q 1).val = (i 1).val := by
  unfold DotDims.rhsIdx
  rw [dif_neg (show ¬(1 : Fin S128x64.rank) ∈ Cert.KernelIdeal.dot_S512x128_S128x64_S512x64_1_0_0_1_n_n.rhsBatch by decide), dif_pos (show (1 : Fin S128x64.rank) ∈ Cert.KernelIdeal.dot_S512x128_S128x64_S512x64_1_0_0_1_n_n.rhsNonContracting by decide)]
  rfl
/-- Entry `(row of i, k)` of the left operand. -/
abbrev kd4a_l (i : S512x64.Idx) (k : Fin 128) : S512x128.Idx := fun a => match a with
  | ⟨0, _⟩ => ⟨(i 0).val, (i 0).isLt⟩
  | ⟨1, _⟩ => ⟨k.val, k.isLt⟩
/-- Entry `(k, column of i)` of the right operand. -/
abbrev kd4a_r (i : S512x64.Idx) (k : Fin 128) : S128x64.Idx := fun a => match a with
  | ⟨0, _⟩ => ⟨k.val, k.isLt⟩
  | ⟨1, _⟩ => ⟨(i 1).val, (i 1).isLt⟩
/-- The contraction, re-indexed by `k < 128`: entry `i` of the product is `∑ k, a[row i, k] · b[k, col i]`. -/
theorem kd4a_sum (a : S512x128.Idx → EReal) (b : S128x64.Idx → EReal) (i : S512x64.Idx) :
    ∑ q : Cert.KernelIdeal.dot_S512x128_S128x64_S512x64_1_0_0_1_n_n.contr.Idx, a (Cert.KernelIdeal.dot_S512x128_S128x64_S512x64_1_0_0_1_n_n.lhsIdx i q) * b (Cert.KernelIdeal.dot_S512x128_S128x64_S512x64_1_0_0_1_n_n.rhsIdx i q)
      = ∑ k : Fin 128, a (kd4a_l i k) * b (kd4a_r i k) := by
  rw [← Equiv.sum_comp (ValueIdx.contrEquiv1 Cert.KernelIdeal.dot_S512x128_S128x64_S512x64_1_0_0_1_n_n 128 rfl rfl).symm]
  refine Finset.sum_congr rfl fun k _ => ?_
  have hk := ValueIdx.contrEquiv1_symm_val Cert.KernelIdeal.dot_S512x128_S128x64_S512x64_1_0_0_1_n_n 128 rfl rfl k
  have el : Cert.KernelIdeal.dot_S512x128_S128x64_S512x64_1_0_0_1_n_n.lhsIdx i ((ValueIdx.contrEquiv1 Cert.KernelIdeal.dot_S512x128_S128x64_S512x64_1_0_0_1_n_n 128 rfl rfl).symm k) = kd4a_l i k := funext fun a => Fin.ext (by
    match a with
    | ⟨0, _⟩ => exact kd4a_lhs0 _ _
    | ⟨1, _⟩ => exact (kd4a_lhs1 _ _).trans hk)
  have er : Cert.KernelIdeal.dot_S512x128_S128x64_S512x64_1_0_0_1_n_n.rhsIdx i ((ValueIdx.contrEquiv1 Cert.KernelIdeal.dot_S512x128_S128x64_S512x64_1_0_0_1_n_n 128 rfl rfl).symm k) = kd4a_r i k := funext fun a => Fin.ext (by
    match a with
    | ⟨0, _⟩ => exact (kd4a_rhs0 _ _).trans hk
    | ⟨1, _⟩ => exact kd4a_rhs1 _ _)
  rw [el, er]

/-! ### `dot_S512x64_S64x10_S512x10_1_0_0_1_n_n`: rows of the left operand against columns of the right -/

theorem kd4b_lhs0 (i : S512x10.Idx) (q : Cert.KernelIdeal.dot_S512x64_S64x10_S512x10_1_0_0_1_n_n.contr.Idx) : (Cert.KernelIdeal.dot_S512x64_S64x10_S512x10_1_0_0_1_n_n.lhsIdx i q 0).val = (i 0).val := by
  unfold DotDims.lhsIdx
  rw [dif_neg (show ¬(0 : Fin S512x64.rank) ∈ Cert.KernelIdeal.dot_S512x64_S64x10_S512x10_1_0_0_1_n_n.lhsBatch by decide), dif_pos (show (0 : Fin S512x64.rank) ∈ Cert.KernelIdeal.dot_S512x64_S64x10_S512x10_1_0_0_1_n_n.lhsNonContracting by decide)]
  rfl
theorem kd4b_lhs1 (i : S512x10.Idx) (q : Cert.KernelIdeal.dot_S512x64_S64x10_S512x10_1_0_0_1_n_n.contr.Idx) : (Cert.KernelIdeal.dot_S512x64_S64x10_S512x10_1_0_0_1_n_n.lhsIdx i q 1).val = (q ⟨0, by decide⟩).val :=
  Cert.KernelIdeal.dot_S512x64_S64x10_S512x10_1_0_0_1_n_n.lhsIdx_val_of_single rfl i q
theorem kd4b_rhs0 (i : S512x10.Idx) (q : Cert.KernelIdeal.dot_S512x64_S64x10_S512x10_1_0_0_1_n_n.contr.Idx) : (Cert.KernelIdeal.dot_S512x64_S64x10_S512x10_1_0_0_1_n_n.rhsIdx i q 0).val = (q ⟨0, by decide⟩).val :=
  Cert.KernelIdeal.dot_S512x64_S64x10_S512x10_1_0_0_1_n_n.rhsIdx_val_of_single rfl i q
theorem kd4b_rhs1 (i : S512x10.Idx) (q : Cert.KernelIdeal.dot_S512x64_S64x10_S512x10_1_0_0_1_n_n.contr.Idx) : (Cert.KernelIdeal.dot_S512x64_S64x10_S512x10_1_0_0_1_n_n.rhsIdx i q 1).val = (i 1).val := by
  unfold DotDims.rhsIdx
  rw [dif_neg (show ¬(1 : Fin S64x10.rank) ∈ Cert.KernelIdeal.dot_S512x64_S64x10_S512x10_1_0_0_1_n_n.rhsBatch by decide), dif_pos (show (1 : Fin S64x10.rank) ∈ Cert.KernelIdeal.dot_S512x64_S64x10_S512x10_1_0_0_1_n_n.rhsNonContracting by decide)]
  rfl
/-- Entry `(row of i, k)` of the left operand. -/
abbrev kd4b_l (i : S512x10.Idx) (k : Fin 64) : S512x64.Idx := fun a => match a with
  | ⟨0, _⟩ => ⟨(i 0).val, (i 0).isLt⟩
  | ⟨1, _⟩ => ⟨k.val, k.isLt⟩
/-- Entry `(k, column of i)` of the right operand. -/
abbrev kd4b_r (i : S512x10.Idx) (k : Fin 64) : S64x10.Idx := fun a => match a with
  | ⟨0, _⟩ => ⟨k.val, k.isLt⟩
  | ⟨1, _⟩ => ⟨(i 1).val, (i 1).isLt⟩
/-- The contraction, re-indexed by `k < 64`: entry `i` of the product is `∑ k, a[row i, k] · b[k, col i]`. -/
theorem kd4b_sum (a : S512x64.Idx → EReal) (b : S64x10.Idx → EReal) (i : S512x10.Idx) :
    ∑ q : Cert.KernelIdeal.dot_S512x64_S64x10_S512x10_1_0_0_1_n_n.contr.Idx, a (Cert.KernelIdeal.dot_S512x64_S64x10_S512x10_1_0_0_1_n_n.lhsIdx i q) * b (Cert.KernelIdeal.dot_S512x64_S64x10_S512x10_1_0_0_1_n_n.rhsIdx i q)
      = ∑ k : Fin 64, a (kd4b_l i k) * b (kd4b_r i k) := by
  rw [← Equiv.sum_comp (ValueIdx.contrEquiv1 Cert.KernelIdeal.dot_S512x64_S64x10_S512x10_1_0_0_1_n_n 64 rfl rfl).symm]
  refine Finset.sum_congr rfl fun k _ => ?_
  have hk := ValueIdx.contrEquiv1_symm_val Cert.KernelIdeal.dot_S512x64_S64x10_S512x10_1_0_0_1_n_n 64 rfl rfl k
  have el : Cert.KernelIdeal.dot_S512x64_S64x10_S512x10_1_0_0_1_n_n.lhsIdx i ((ValueIdx.contrEquiv1 Cert.KernelIdeal.dot_S512x64_S64x10_S512x10_1_0_0_1_n_n 64 rfl rfl).symm k) = kd4b_l i k := funext fun a => Fin.ext (by
    match a with
    | ⟨0, _⟩ => exact kd4b_lhs0 _ _
    | ⟨1, _⟩ => exact (kd4b_lhs1 _ _).trans hk)
  have er : Cert.KernelIdeal.dot_S512x64_S64x10_S512x10_1_0_0_1_n_n.rhsIdx i ((ValueIdx.contrEquiv1 Cert.KernelIdeal.dot_S512x64_S64x10_S512x10_1_0_0_1_n_n 64 rfl rfl).symm k) = kd4b_r i k := funext fun a => Fin.ext (by
    match a with
    | ⟨0, _⟩ => exact (kd4b_rhs0 _ _).trans hk
    | ⟨1, _⟩ => exact kd4b_rhs1 _ _)
  rw [el, er]

end Kernel

section Reference
open Cert.ReferenceIdeal Cert.ReferenceIdeal.Gen

/-! ### `dot_S100000x64_S64x64_S100000x64_1_0_0_1_n_n`: rows of the left operand against columns of the right -/

theorem rd0_lhs0 (i : S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem rd0_lhs1 (i : S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rd0_rhs0 (i : S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rd0_rhs1 (i : S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl
/-- Entry `(row of i, k)` of the left operand. -/
abbrev rd0_l (i : S100000x64.Idx) (k : Fin 64) : S100000x64.Idx := fun a => match a with
  | ⟨0, _⟩ => ⟨(i 0).val, (i 0).isLt⟩
  | ⟨1, _⟩ => ⟨k.val, k.isLt⟩
/-- Entry `(k, column of i)` of the right operand. -/
abbrev rd0_r (i : S100000x64.Idx) (k : Fin 64) : S64x64.Idx := fun a => match a with
  | ⟨0, _⟩ => ⟨k.val, k.isLt⟩
  | ⟨1, _⟩ => ⟨(i 1).val, (i 1).isLt⟩
/-- The contraction, re-indexed by `k < 64`: entry `i` of the product is `∑ k, a[row i, k] · b[k, col i]`. -/
theorem rd0_sum (a : S100000x64.Idx → EReal) (b : S64x64.Idx → EReal) (i : S100000x64.Idx) :
    ∑ q : Cert.ReferenceIdeal.dot_S100000x64_S64x64_S100000x64_1_0_0_1_n_n.contr.Idx, a (Cert.ReferenceIdeal.dot_S100000x64_S64x64_S100000x64_1_0_0_1_n_n.lhsIdx i q) * b (Cert.ReferenceIdeal.dot_S100000x64_S64x64_S100000x64_1_0_0_1_n_n.rhsIdx i q)
      = ∑ k : Fin 64, a (rd0_l i k) * b (rd0_r i k) := by
  rw [← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = rd0_l i k := funext fun a => Fin.ext (by
    match a with
    | ⟨0, _⟩ => exact rd0_lhs0 _ _
    | ⟨1, _⟩ => exact (rd0_lhs1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = rd0_r i k := funext fun a => Fin.ext (by
    match a with
    | ⟨0, _⟩ => exact (rd0_rhs0 _ _).trans hk
    | ⟨1, _⟩ => exact rd0_rhs1 _ _)
  rw [el, er]

/-! ### `dot_S100000x64_S64x128_S100000x128_1_0_0_1_n_n`: rows of the left operand against columns of the right -/

theorem rd1_lhs0 (i : S100000x128.Idx) (q : Cert.ReferenceIdeal.dot_S100000x64_S64x128_S100000x128_1_0_0_1_n_n.contr.Idx) : (Cert.ReferenceIdeal.dot_S100000x64_S64x128_S100000x128_1_0_0_1_n_n.lhsIdx i q 0).val = (i 0).val := by
  unfold DotDims.lhsIdx
  rw [dif_neg (show ¬(0 : Fin S100000x64.rank) ∈ Cert.ReferenceIdeal.dot_S100000x64_S64x128_S100000x128_1_0_0_1_n_n.lhsBatch by decide), dif_pos (show (0 : Fin S100000x64.rank) ∈ Cert.ReferenceIdeal.dot_S100000x64_S64x128_S100000x128_1_0_0_1_n_n.lhsNonContracting by decide)]
  rfl
theorem rd1_lhs1 (i : S100000x128.Idx) (q : Cert.ReferenceIdeal.dot_S100000x64_S64x128_S100000x128_1_0_0_1_n_n.contr.Idx) : (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
theorem rd1_rhs0 (i : S100000x128.Idx) (q : Cert.ReferenceIdeal.dot_S100000x64_S64x128_S100000x128_1_0_0_1_n_n.contr.Idx) : (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
theorem rd1_rhs1 (i : S100000x128.Idx) (q : Cert.ReferenceIdeal.dot_S100000x64_S64x128_S100000x128_1_0_0_1_n_n.contr.Idx) : (Cert.ReferenceIdeal.dot_S100000x64_S64x128_S100000x128_1_0_0_1_n_n.rhsIdx i q 1).val = (i 1).val := by
  unfold DotDims.rhsIdx
  rw [dif_neg (show ¬(1 : Fin S64x128.rank) ∈ Cert.ReferenceIdeal.dot_S100000x64_S64x128_S100000x128_1_0_0_1_n_n.rhsBatch by decide), dif_pos (show (1 : Fin S64x128.rank) ∈ Cert.ReferenceIdeal.dot_S100000x64_S64x128_S100000x128_1_0_0_1_n_n.rhsNonContracting by decide)]
  rfl
/-- Entry `(row of i, k)` of the left operand. -/
abbrev rd1_l (i : S100000x128.Idx) (k : Fin 64) : S100000x64.Idx := fun a => match a with
  | ⟨0, _⟩ => ⟨(i 0).val, (i 0).isLt⟩
  | ⟨1, _⟩ => ⟨k.val, k.isLt⟩
/-- Entry `(k, column of i)` of the right operand. -/
abbrev rd1_r (i : S100000x128.Idx) (k : Fin 64) : S64x128.Idx := fun a => match a with
  | ⟨0, _⟩ => ⟨k.val, k.isLt⟩
  | ⟨1, _⟩ => ⟨(i 1).val, (i 1).isLt⟩
/-- The contraction, re-indexed by `k < 64`: entry `i` of the product is `∑ k, a[row i, k] · b[k, col i]`. -/
theorem rd1_sum (a : S100000x64.Idx → EReal) (b : S64x128.Idx → EReal) (i : S100000x128.Idx) :
    ∑ q : Cert.ReferenceIdeal.dot_S100000x64_S64x128_S100000x128_1_0_0_1_n_n.contr.Idx, a (Cert.ReferenceIdeal.dot_S100000x64_S64x128_S100000x128_1_0_0_1_n_n.lhsIdx i q) * b (Cert.ReferenceIdeal.dot_S100000x64_S64x128_S100000x128_1_0_0_1_n_n.rhsIdx i q)
      = ∑ k : Fin 64, a (rd1_l i k) * b (rd1_r i k) := by
  rw [← Equiv.sum_comp (ValueIdx.contrEquiv1 Cert.ReferenceIdeal.dot_S100000x64_S64x128_S100000x128_1_0_0_1_n_n 64 rfl rfl).symm]
  refine Finset.sum_congr rfl fun k _ => ?_
  have hk := ValueIdx.contrEquiv1_symm_val Cert.ReferenceIdeal.dot_S100000x64_S64x128_S100000x128_1_0_0_1_n_n 64 rfl rfl k
  have el : Cert.ReferenceIdeal.dot_S100000x64_S64x128_S100000x128_1_0_0_1_n_n.lhsIdx i ((ValueIdx.contrEquiv1 Cert.ReferenceIdeal.dot_S100000x64_S64x128_S100000x128_1_0_0_1_n_n 64 rfl rfl).symm k) = rd1_l i k := funext fun a => Fin.ext (by
    match a with
    | ⟨0, _⟩ => exact rd1_lhs0 _ _
    | ⟨1, _⟩ => exact (rd1_lhs1 _ _).trans hk)
  have er : Cert.ReferenceIdeal.dot_S100000x64_S64x128_S100000x128_1_0_0_1_n_n.rhsIdx i ((ValueIdx.contrEquiv1 Cert.ReferenceIdeal.dot_S100000x64_S64x128_S100000x128_1_0_0_1_n_n 64 rfl rfl).symm k) = rd1_r i k := funext fun a => Fin.ext (by
    match a with
    | ⟨0, _⟩ => exact (rd1_rhs0 _ _).trans hk
    | ⟨1, _⟩ => exact rd1_rhs1 _ _)
  rw [el, er]

/-! ### `dot_S100000x128_S128x128_S100000x128_1_0_0_1_n_n`: rows of the left operand against columns of the right -/

theorem rd2_lhs0 (i : S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem rd2_lhs1 (i : S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rd2_rhs0 (i : S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rd2_rhs1 (i : S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl
/-- Entry `(row of i, k)` of the left operand. -/
abbrev rd2_l (i : S100000x128.Idx) (k : Fin 128) : S100000x128.Idx := fun a => match a with
  | ⟨0, _⟩ => ⟨(i 0).val, (i 0).isLt⟩
  | ⟨1, _⟩ => ⟨k.val, k.isLt⟩
/-- Entry `(k, column of i)` of the right operand. -/
abbrev rd2_r (i : S100000x128.Idx) (k : Fin 128) : S128x128.Idx := fun a => match a with
  | ⟨0, _⟩ => ⟨k.val, k.isLt⟩
  | ⟨1, _⟩ => ⟨(i 1).val, (i 1).isLt⟩
/-- The contraction, re-indexed by `k < 128`: entry `i` of the product is `∑ k, a[row i, k] · b[k, col i]`. -/
theorem rd2_sum (a : S100000x128.Idx → EReal) (b : S128x128.Idx → EReal) (i : S100000x128.Idx) :
    ∑ q : Cert.ReferenceIdeal.dot_S100000x128_S128x128_S100000x128_1_0_0_1_n_n.contr.Idx, a (Cert.ReferenceIdeal.dot_S100000x128_S128x128_S100000x128_1_0_0_1_n_n.lhsIdx i q) * b (Cert.ReferenceIdeal.dot_S100000x128_S128x128_S100000x128_1_0_0_1_n_n.rhsIdx i q)
      = ∑ k : Fin 128, a (rd2_l i k) * b (rd2_r i k) := by
  rw [← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = rd2_l i k := funext fun a => Fin.ext (by
    match a with
    | ⟨0, _⟩ => exact rd2_lhs0 _ _
    | ⟨1, _⟩ => exact (rd2_lhs1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rd2_r i k := funext fun a => Fin.ext (by
    match a with
    | ⟨0, _⟩ => exact (rd2_rhs0 _ _).trans hk
    | ⟨1, _⟩ => exact rd2_rhs1 _ _)
  rw [el, er]

/-! ### `dot_S512x128_S128x64_S512x64_1_0_0_1_n_n`: rows of the left operand against columns of the right -/

theorem rd4a_lhs0 (i : S512x64.Idx) (q : Cert.ReferenceIdeal.dot_S512x128_S128x64_S512x64_1_0_0_1_n_n.contr.Idx) : (Cert.ReferenceIdeal.dot_S512x128_S128x64_S512x64_1_0_0_1_n_n.lhsIdx i q 0).val = (i 0).val := by
  unfold DotDims.lhsIdx
  rw [dif_neg (show ¬(0 : Fin S512x128.rank) ∈ Cert.ReferenceIdeal.dot_S512x128_S128x64_S512x64_1_0_0_1_n_n.lhsBatch by decide), dif_pos (show (0 : Fin S512x128.rank) ∈ Cert.ReferenceIdeal.dot_S512x128_S128x64_S512x64_1_0_0_1_n_n.lhsNonContracting by decide)]
  rfl
theorem rd4a_lhs1 (i : S512x64.Idx) (q : Cert.ReferenceIdeal.dot_S512x128_S128x64_S512x64_1_0_0_1_n_n.contr.Idx) : (Cert.ReferenceIdeal.dot_S512x128_S128x64_S512x64_1_0_0_1_n_n.lhsIdx i q 1).val = (q ⟨0, by decide⟩).val :=
  Cert.ReferenceIdeal.dot_S512x128_S128x64_S512x64_1_0_0_1_n_n.lhsIdx_val_of_single rfl i q
theorem rd4a_rhs0 (i : S512x64.Idx) (q : Cert.ReferenceIdeal.dot_S512x128_S128x64_S512x64_1_0_0_1_n_n.contr.Idx) : (Cert.ReferenceIdeal.dot_S512x128_S128x64_S512x64_1_0_0_1_n_n.rhsIdx i q 0).val = (q ⟨0, by decide⟩).val :=
  Cert.ReferenceIdeal.dot_S512x128_S128x64_S512x64_1_0_0_1_n_n.rhsIdx_val_of_single rfl i q
theorem rd4a_rhs1 (i : S512x64.Idx) (q : Cert.ReferenceIdeal.dot_S512x128_S128x64_S512x64_1_0_0_1_n_n.contr.Idx) : (Cert.ReferenceIdeal.dot_S512x128_S128x64_S512x64_1_0_0_1_n_n.rhsIdx i q 1).val = (i 1).val := by
  unfold DotDims.rhsIdx
  rw [dif_neg (show ¬(1 : Fin S128x64.rank) ∈ Cert.ReferenceIdeal.dot_S512x128_S128x64_S512x64_1_0_0_1_n_n.rhsBatch by decide), dif_pos (show (1 : Fin S128x64.rank) ∈ Cert.ReferenceIdeal.dot_S512x128_S128x64_S512x64_1_0_0_1_n_n.rhsNonContracting by decide)]
  rfl
/-- Entry `(row of i, k)` of the left operand. -/
abbrev rd4a_l (i : S512x64.Idx) (k : Fin 128) : S512x128.Idx := fun a => match a with
  | ⟨0, _⟩ => ⟨(i 0).val, (i 0).isLt⟩
  | ⟨1, _⟩ => ⟨k.val, k.isLt⟩
/-- Entry `(k, column of i)` of the right operand. -/
abbrev rd4a_r (i : S512x64.Idx) (k : Fin 128) : S128x64.Idx := fun a => match a with
  | ⟨0, _⟩ => ⟨k.val, k.isLt⟩
  | ⟨1, _⟩ => ⟨(i 1).val, (i 1).isLt⟩
/-- The contraction, re-indexed by `k < 128`: entry `i` of the product is `∑ k, a[row i, k] · b[k, col i]`. -/
theorem rd4a_sum (a : S512x128.Idx → EReal) (b : S128x64.Idx → EReal) (i : S512x64.Idx) :
    ∑ q : Cert.ReferenceIdeal.dot_S512x128_S128x64_S512x64_1_0_0_1_n_n.contr.Idx, a (Cert.ReferenceIdeal.dot_S512x128_S128x64_S512x64_1_0_0_1_n_n.lhsIdx i q) * b (Cert.ReferenceIdeal.dot_S512x128_S128x64_S512x64_1_0_0_1_n_n.rhsIdx i q)
      = ∑ k : Fin 128, a (rd4a_l i k) * b (rd4a_r i k) := by
  rw [← Equiv.sum_comp (ValueIdx.contrEquiv1 Cert.ReferenceIdeal.dot_S512x128_S128x64_S512x64_1_0_0_1_n_n 128 rfl rfl).symm]
  refine Finset.sum_congr rfl fun k _ => ?_
  have hk := ValueIdx.contrEquiv1_symm_val Cert.ReferenceIdeal.dot_S512x128_S128x64_S512x64_1_0_0_1_n_n 128 rfl rfl k
  have el : Cert.ReferenceIdeal.dot_S512x128_S128x64_S512x64_1_0_0_1_n_n.lhsIdx i ((ValueIdx.contrEquiv1 Cert.ReferenceIdeal.dot_S512x128_S128x64_S512x64_1_0_0_1_n_n 128 rfl rfl).symm k) = rd4a_l i k := funext fun a => Fin.ext (by
    match a with
    | ⟨0, _⟩ => exact rd4a_lhs0 _ _
    | ⟨1, _⟩ => exact (rd4a_lhs1 _ _).trans hk)
  have er : Cert.ReferenceIdeal.dot_S512x128_S128x64_S512x64_1_0_0_1_n_n.rhsIdx i ((ValueIdx.contrEquiv1 Cert.ReferenceIdeal.dot_S512x128_S128x64_S512x64_1_0_0_1_n_n 128 rfl rfl).symm k) = rd4a_r i k := funext fun a => Fin.ext (by
    match a with
    | ⟨0, _⟩ => exact (rd4a_rhs0 _ _).trans hk
    | ⟨1, _⟩ => exact rd4a_rhs1 _ _)
  rw [el, er]

/-! ### `dot_S512x64_S64x10_S512x10_1_0_0_1_n_n`: rows of the left operand against columns of the right -/

theorem rd4b_lhs0 (i : S512x10.Idx) (q : Cert.ReferenceIdeal.dot_S512x64_S64x10_S512x10_1_0_0_1_n_n.contr.Idx) : (Cert.ReferenceIdeal.dot_S512x64_S64x10_S512x10_1_0_0_1_n_n.lhsIdx i q 0).val = (i 0).val := by
  unfold DotDims.lhsIdx
  rw [dif_neg (show ¬(0 : Fin S512x64.rank) ∈ Cert.ReferenceIdeal.dot_S512x64_S64x10_S512x10_1_0_0_1_n_n.lhsBatch by decide), dif_pos (show (0 : Fin S512x64.rank) ∈ Cert.ReferenceIdeal.dot_S512x64_S64x10_S512x10_1_0_0_1_n_n.lhsNonContracting by decide)]
  rfl
theorem rd4b_lhs1 (i : S512x10.Idx) (q : Cert.ReferenceIdeal.dot_S512x64_S64x10_S512x10_1_0_0_1_n_n.contr.Idx) : (Cert.ReferenceIdeal.dot_S512x64_S64x10_S512x10_1_0_0_1_n_n.lhsIdx i q 1).val = (q ⟨0, by decide⟩).val :=
  Cert.ReferenceIdeal.dot_S512x64_S64x10_S512x10_1_0_0_1_n_n.lhsIdx_val_of_single rfl i q
theorem rd4b_rhs0 (i : S512x10.Idx) (q : Cert.ReferenceIdeal.dot_S512x64_S64x10_S512x10_1_0_0_1_n_n.contr.Idx) : (Cert.ReferenceIdeal.dot_S512x64_S64x10_S512x10_1_0_0_1_n_n.rhsIdx i q 0).val = (q ⟨0, by decide⟩).val :=
  Cert.ReferenceIdeal.dot_S512x64_S64x10_S512x10_1_0_0_1_n_n.rhsIdx_val_of_single rfl i q
theorem rd4b_rhs1 (i : S512x10.Idx) (q : Cert.ReferenceIdeal.dot_S512x64_S64x10_S512x10_1_0_0_1_n_n.contr.Idx) : (Cert.ReferenceIdeal.dot_S512x64_S64x10_S512x10_1_0_0_1_n_n.rhsIdx i q 1).val = (i 1).val := by
  unfold DotDims.rhsIdx
  rw [dif_neg (show ¬(1 : Fin S64x10.rank) ∈ Cert.ReferenceIdeal.dot_S512x64_S64x10_S512x10_1_0_0_1_n_n.rhsBatch by decide), dif_pos (show (1 : Fin S64x10.rank) ∈ Cert.ReferenceIdeal.dot_S512x64_S64x10_S512x10_1_0_0_1_n_n.rhsNonContracting by decide)]
  rfl
/-- Entry `(row of i, k)` of the left operand. -/
abbrev rd4b_l (i : S512x10.Idx) (k : Fin 64) : S512x64.Idx := fun a => match a with
  | ⟨0, _⟩ => ⟨(i 0).val, (i 0).isLt⟩
  | ⟨1, _⟩ => ⟨k.val, k.isLt⟩
/-- Entry `(k, column of i)` of the right operand. -/
abbrev rd4b_r (i : S512x10.Idx) (k : Fin 64) : S64x10.Idx := fun a => match a with
  | ⟨0, _⟩ => ⟨k.val, k.isLt⟩
  | ⟨1, _⟩ => ⟨(i 1).val, (i 1).isLt⟩
/-- The contraction, re-indexed by `k < 64`: entry `i` of the product is `∑ k, a[row i, k] · b[k, col i]`. -/
theorem rd4b_sum (a : S512x64.Idx → EReal) (b : S64x10.Idx → EReal) (i : S512x10.Idx) :
    ∑ q : Cert.ReferenceIdeal.dot_S512x64_S64x10_S512x10_1_0_0_1_n_n.contr.Idx, a (Cert.ReferenceIdeal.dot_S512x64_S64x10_S512x10_1_0_0_1_n_n.lhsIdx i q) * b (Cert.ReferenceIdeal.dot_S512x64_S64x10_S512x10_1_0_0_1_n_n.rhsIdx i q)
      = ∑ k : Fin 64, a (rd4b_l i k) * b (rd4b_r i k) := by
  rw [← Equiv.sum_comp (ValueIdx.contrEquiv1 Cert.ReferenceIdeal.dot_S512x64_S64x10_S512x10_1_0_0_1_n_n 64 rfl rfl).symm]
  refine Finset.sum_congr rfl fun k _ => ?_
  have hk := ValueIdx.contrEquiv1_symm_val Cert.ReferenceIdeal.dot_S512x64_S64x10_S512x10_1_0_0_1_n_n 64 rfl rfl k
  have el : Cert.ReferenceIdeal.dot_S512x64_S64x10_S512x10_1_0_0_1_n_n.lhsIdx i ((ValueIdx.contrEquiv1 Cert.ReferenceIdeal.dot_S512x64_S64x10_S512x10_1_0_0_1_n_n 64 rfl rfl).symm k) = rd4b_l i k := funext fun a => Fin.ext (by
    match a with
    | ⟨0, _⟩ => exact rd4b_lhs0 _ _
    | ⟨1, _⟩ => exact (rd4b_lhs1 _ _).trans hk)
  have er : Cert.ReferenceIdeal.dot_S512x64_S64x10_S512x10_1_0_0_1_n_n.rhsIdx i ((ValueIdx.contrEquiv1 Cert.ReferenceIdeal.dot_S512x64_S64x10_S512x10_1_0_0_1_n_n 64 rfl rfl).symm k) = rd4b_r i k := funext fun a => Fin.ext (by
    match a with
    | ⟨0, _⟩ => exact (rd4b_rhs0 _ _).trans hk
    | ⟨1, _⟩ => exact rd4b_rhs1 _ _)
  rw [el, er]

end Reference

end Cert.Bridge.Dots

end
-- ==== Proof.Layers.lean ====
/-
  One graph-convolution layer, entry by entry.  A layer sends the aggregated neighbour features `A`, the node
  features `H`, two (transposed) weight matrices and a bias row to
      out[r, c] = (∑ k, A[r, k] · WR[k, c]) + (∑ k, H[r, k] · WS[k, c]) + b[c]        (then max(·, 0) where the layer has one).
  The host program states this over all 100000 rows at once; the kernel computes it on 4000-row blocks.  Row `r` of
  the result only reads row `r` of `A` and of `H`, so a block of the whole-array result is the same expression of the
  blocks of `A` and `H`.  No law of arithmetic is needed beyond reading both sides at an entry: the sums, the
  additions and the maximum are literally the same; hence nothing here needs the inputs to be finite.
-/
import proofs.«153316_j43207370998446_1_alg».proof.Proof.Dots
import proofs.«153316_j43207370998446_1_alg».proof.Proof.Gen.KernelIdeal.Skeleton

noncomputable section

namespace Cert.Bridge

open Idealize.ShloMosaic Idealize.ShloMosaic.TcCoe Cert.Bridge.Dots

/-! ## Layer 0 over the whole array -/
section Ref0
open Cert.ReferenceIdeal Cert.ReferenceIdeal.Gen

/-- The layer before its maximum, over all rows. -/
def gconv0 (A H : FVec Ideal S100000x64 .f32) (WR WS : FVec Ideal S64x64 .f32) (B : FVec Ideal S1x64 .f32) : FVec Ideal S100000x64 .f32 :=
  addf (addf (Host.dotGeneral (F := Ideal) dot_S100000x64_S64x64_S100000x64_1_0_0_1_n_n none A WR) (Host.dotGeneral (F := Ideal) dot_S100000x64_S64x64_S100000x64_1_0_0_1_n_n none H WS))
    (broadcastInDim S100000x64 ![0, 1] bcast_S1x64_S100000x64_0_1 B)

/-- The bias row's entry under column `c` of entry `i`. -/
abbrev brow0 (i : S100000x64.Idx) : S1x64.Idx := fun a => match a with
  | ⟨0, _⟩ => ⟨0, Nat.one_pos⟩
  | ⟨1, _⟩ => ⟨(i 1).val, (i 1).isLt⟩

theorem gconv0_apply (A H : FVec Ideal S100000x64 .f32) (WR WS : FVec Ideal S64x64 .f32) (B : FVec Ideal S1x64 .f32) (i : S100000x64.Idx) :
    gconv0 A H WR WS B i = ((∑ k : Fin 64, A (rd0_l i k) * WR (rd0_r i k)) + (∑ k : Fin 64, H (rd0_l i k) * WS (rd0_r i k))) + B (brow0 i) := by
  unfold gconv0
  rw [ValueIdx.addf_apply, ValueIdx.addf_apply]
  simp only [Host.dotGeneral]
  rw [Ideal.dotGeneral_apply, Ideal.dotGeneral_apply, rd0_sum, rd0_sum]
  congr 1
  exact broadcastInDim_apply _ bcast_S1x64_S100000x64_0_1 B i (brow0 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The maximum with zero, over all rows. -/
def relu0 (X : FVec Ideal S100000x64 .f32) : FVec Ideal S100000x64 .f32 :=
  maximumf X (broadcastInDim S100000x64 ![] bcast_S_S100000x64 (constant (F := Ideal) S_ .f32 0x00000000#32))

theorem relu0_apply (X : FVec Ideal S100000x64 .f32) (i : S100000x64.Idx) : relu0 X i = max (X i) (Ideal.ofBits .f32 0x00000000#32) := by
  unfold relu0
  rw [ValueIdx.maximumf_apply]
  refine congrArg (max (X i)) ?_
  exact broadcastInDim_apply _ bcast_S_S100000x64 (constant (F := Ideal) S_ .f32 0x00000000#32) i (fun a => a.elim0) (fun a => a.elim0)

end Ref0

/-! ## Layer 0 on one block of rows -/
section Ker0
open Cert.KernelIdeal Cert.KernelIdeal.Gen

/-- The bias row's entry under column `c` of entry `y` of the block. -/
abbrev kbrow0 (y : S4000x64.Idx) : S1x64.Idx := fun a => match a with
  | ⟨0, _⟩ => ⟨0, Nat.one_pos⟩
  | ⟨1, _⟩ => ⟨(y 1).val, (y 1).isLt⟩

/-- What the kernel body stores at entry `y` of its output block, from its five loaded blocks. -/
theorem pay0_apply (x0 x1 : FVec Ideal S4000x64 .bf16) (x2 x3 : FVec Ideal S64x64 .bf16) (x4 : FVec Ideal S1x64 .f32) (y : S4000x64.Idx) :
    k0_pay1 (F := Ideal) x0 x1 x2 x3 x4 y
      = max (((∑ k : Fin 64, x0 (kd0_l y k) * x2 (kd0_r y k)) + (∑ k : Fin 64, x1 (kd0_l y k) * x3 (kd0_r y k))) + x4 (kbrow0 y)) (Ideal.ofBits .f32 0x00000000#32) := by
  unfold k0_pay1
  simp only [shapeCast_self, matmul]
  rw [ValueIdx.maximumf_apply, ValueIdx.broadcast_apply]
  congr 1
  rw [ValueIdx.addf_apply, ValueIdx.addf_apply, Ideal.matmul_constant_zero_apply, Ideal.matmul_constant_zero_apply]
  rw [kd0_sum, kd0_sum]
  congr 1
  exact broadcastTo_apply x4 broadcasts_S1x64_S4000x64 y (kbrow0 y) (fun a => match a with
    | ⟨0, _⟩ => by show 0 = if (1 : Nat) = 1 then 0 else (y 0).val; rw [if_pos rfl]
    | ⟨1, _⟩ => by show (y 1).val = if (64 : Nat) = 1 then 0 else (y 1).val; rw [if_neg (by decide)])

end Ker0

/-! ## Layer 1 over the whole array -/
section Ref1
open Cert.ReferenceIdeal Cert.ReferenceIdeal.Gen

/-- The layer before its maximum, over all rows. -/
def gconv1 (A H : FVec Ideal S100000x64 .f32) (WR WS : FVec Ideal S64x128 .f32) (B : FVec Ideal S1x128 .f32) : FVec Ideal S100000x128 .f32 :=
  addf (addf (Host.dotGeneral (F := Ideal) dot_S100000x64_S64x128_S100000x128_1_0_0_1_n_n none A WR) (Host.dotGeneral (F := Ideal) dot_S100000x64_S64x128_S100000x128_1_0_0_1_n_n none H WS))
    (broadcastInDim S100000x128 ![0, 1] bcast_S1x128_S100000x128_0_1 B)

/-- The bias row's entry under column `c` of entry `i`. -/
abbrev brow1 (i : S100000x128.Idx) : S1x128.Idx := fun a => match a with
  | ⟨0, _⟩ => ⟨0, Nat.one_pos⟩
  | ⟨1, _⟩ => ⟨(i 1).val, (i 1).isLt⟩

theorem gconv1_apply (A H : FVec Ideal S100000x64 .f32) (WR WS : FVec Ideal S64x128 .f32) (B : FVec Ideal S1x128 .f32) (i : S100000x128.Idx) :
    gconv1 A H WR WS B i = ((∑ k : Fin 64, A (rd1_l i k) * WR (rd1_r i k)) + (∑ k : Fin 64, H (rd1_l i k) * WS (rd1_r i k))) + B (brow1 i) := by
  unfold gconv1
  rw [ValueIdx.addf_apply, ValueIdx.addf_apply]
  simp only [Host.dotGeneral]
  rw [Ideal.dotGeneral_apply, Ideal.dotGeneral_apply, rd1_sum, rd1_sum]
  congr 1
  exact broadcastInDim_apply _ bcast_S1x128_S100000x128_0_1 B i (brow1 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The maximum with zero, over all rows. -/
def relu1 (X : FVec Ideal S100000x128 .f32) : FVec Ideal S100000x128 .f32 :=
  maximumf X (broadcastInDim S100000x128 ![] bcast_S_S100000x128 (constant (F := Ideal) S_ .f32 0x00000000#32))

theorem relu1_apply (X : FVec Ideal S100000x128 .f32) (i : S100000x128.Idx) : relu1 X i = max (X i) (Ideal.ofBits .f32 0x00000000#32) := by
  unfold relu1
  rw [ValueIdx.maximumf_apply]
  refine congrArg (max (X i)) ?_
  exact broadcastInDim_apply _ bcast_S_S100000x128 (constant (F := Ideal) S_ .f32 0x00000000#32) i (fun a => a.elim0) (fun a => a.elim0)

end Ref1

/-! ## Layer 1 on one block of rows -/
section Ker1
open Cert.KernelIdeal Cert.KernelIdeal.Gen

/-- The bias row's entry under column `c` of entry `y` of the block. -/
abbrev kbrow1 (y : S4000x128.Idx) : S1x128.Idx := fun a => match a with
  | ⟨0, _⟩ => ⟨0, Nat.one_pos⟩
  | ⟨1, _⟩ => ⟨(y 1).val, (y 1).isLt⟩

/-- What the kernel body stores at entry `y` of its output block, from its five loaded blocks. -/
theorem pay1_apply (x0 x1 : FVec Ideal S4000x64 .bf16) (x2 x3 : FVec Ideal S64x128 .bf16) (x4 : FVec Ideal S1x128 .f32) (y : S4000x128.Idx) :
    k1_pay1 (F := Ideal) x0 x1 x2 x3 x4 y
      = max (((∑ k : Fin 64, x0 (kd1_l y k) * x2 (kd1_r y k)) + (∑ k : Fin 64, x1 (kd1_l y k) * x3 (kd1_r y k))) + x4 (kbrow1 y)) (Ideal.ofBits .f32 0x00000000#32) := by
  unfold k1_pay1
  simp only [shapeCast_self, matmul]
  rw [ValueIdx.maximumf_apply, ValueIdx.broadcast_apply]
  congr 1
  rw [ValueIdx.addf_apply, ValueIdx.addf_apply, Ideal.matmul_constant_zero_apply, Ideal.matmul_constant_zero_apply]
  rw [kd1_sum, kd1_sum]
  congr 1
  exact broadcastTo_apply x4 broadcasts_S1x128_S4000x128 y (kbrow1 y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

end Ker1

/-! ## Layer 2 over the whole array -/
section Ref2
open Cert.ReferenceIdeal Cert.ReferenceIdeal.Gen

/-- The layer before its maximum, over all rows. -/
def gconv2 (A H : FVec Ideal S100000x128 .f32) (WR WS : FVec Ideal S128x128 .f32) (B : FVec Ideal S1x128 .f32) : FVec Ideal S100000x128 .f32 :=
  addf (addf (Host.dotGeneral (F := Ideal) dot_S100000x128_S128x128_S100000x128_1_0_0_1_n_n none A WR) (Host.dotGeneral (F := Ideal) dot_S100000x128_S128x128_S100000x128_1_0_0_1_n_n none H WS))
    (broadcastInDim S100000x128 ![0, 1] bcast_S1x128_S100000x128_0_1 B)

/-- The bias row's entry under column `c` of entry `i`. -/
abbrev brow2 (i : S100000x128.Idx) : S1x128.Idx := fun a => match a with
  | ⟨0, _⟩ => ⟨0, Nat.one_pos⟩
  | ⟨1, _⟩ => ⟨(i 1).val, (i 1).isLt⟩

theorem gconv2_apply (A H : FVec Ideal S100000x128 .f32) (WR WS : FVec Ideal S128x128 .f32) (B : FVec Ideal S1x128 .f32) (i : S100000x128.Idx) :
    gconv2 A H WR WS B i = ((∑ k : Fin 128, A (rd2_l i k) * WR (rd2_r i k)) + (∑ k : Fin 128, H (rd2_l i k) * WS (rd2_r i k))) + B (brow2 i) := by
  unfold gconv2
  rw [ValueIdx.addf_apply, ValueIdx.addf_apply]
  simp only [Host.dotGeneral]
  rw [Ideal.dotGeneral_apply, Ideal.dotGeneral_apply, rd2_sum, rd2_sum]
  congr 1
  exact broadcastInDim_apply _ bcast_S1x128_S100000x128_0_1 B i (brow2 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The maximum with zero, over all rows. -/
def relu2 (X : FVec Ideal S100000x128 .f32) : FVec Ideal S100000x128 .f32 :=
  maximumf X (broadcastInDim S100000x128 ![] bcast_S_S100000x128 (constant (F := Ideal) S_ .f32 0x00000000#32))

theorem relu2_apply (X : FVec Ideal S100000x128 .f32) (i : S100000x128.Idx) : relu2 X i = max (X i) (Ideal.ofBits .f32 0x00000000#32) := by
  unfold relu2
  rw [ValueIdx.maximumf_apply]
  refine congrArg (max (X i)) ?_
  exact broadcastInDim_apply _ bcast_S_S100000x128 (constant (F := Ideal) S_ .f32 0x00000000#32) i (fun a => a.elim0) (fun a => a.elim0)

end Ref2

/-! ## Layer 2 on one block of rows -/
section Ker2
open Cert.KernelIdeal Cert.KernelIdeal.Gen

/-- The bias row's entry under column `c` of entry `y` of the block. -/
abbrev kbrow2 (y : S4000x128.Idx) : S1x128.Idx := fun a => match a with
  | ⟨0, _⟩ => ⟨0, Nat.one_pos⟩
  | ⟨1, _⟩ => ⟨(y 1).val, (y 1).isLt⟩

/-- What the kernel body stores at entry `y` of its output block, from its five loaded blocks. -/
theorem pay2_apply (x0 x1 : FVec Ideal S4000x128 .bf16) (x2 x3 : FVec Ideal S128x128 .bf16) (x4 : FVec Ideal S1x128 .f32) (y : S4000x128.Idx) :
    k2_pay1 (F := Ideal) x0 x1 x2 x3 x4 y
      = max (((∑ k : Fin 128, x0 (kd2_l y k) * x2 (kd2_r y k)) + (∑ k : Fin 128, x1 (kd2_l y k) * x3 (kd2_r y k))) + x4 (kbrow2 y)) (Ideal.ofBits .f32 0x00000000#32) := by
  unfold k2_pay1
  simp only [shapeCast_self, matmul]
  rw [ValueIdx.maximumf_apply, ValueIdx.broadcast_apply]
  congr 1
  rw [ValueIdx.addf_apply, ValueIdx.addf_apply, Ideal.matmul_constant_zero_apply, Ideal.matmul_constant_zero_apply]
  rw [kd2_sum, kd2_sum]
  congr 1
  exact broadcastTo_apply x4 broadcasts_S1x128_S4000x128 y (kbrow2 y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

end Ker2

/-! ## Layer 3 on one block of rows -/
section Ker3
open Cert.KernelIdeal Cert.KernelIdeal.Gen

/-- The bias row's entry under column `c` of entry `y` of the block. -/
abbrev kbrow3 (y : S4000x128.Idx) : S1x128.Idx := fun a => match a with
  | ⟨0, _⟩ => ⟨0, Nat.one_pos⟩
  | ⟨1, _⟩ => ⟨(y 1).val, (y 1).isLt⟩

/-- What the kernel body stores at entry `y` of its output block, from its five loaded blocks. -/
theorem pay3_apply (x0 x1 : FVec Ideal S4000x128 .bf16) (x2 x3 : FVec Ideal S128x128 .bf16) (x4 : FVec Ideal S1x128 .f32) (y : S4000x128.Idx) :
    k3_pay1 (F := Ideal) x0 x1 x2 x3 x4 y
      = ((∑ k : Fin 128, x0 (kd2_l y k) * x2 (kd2_r y k)) + (∑ k : Fin 128, x1 (kd2_l y k) * x3 (kd2_r y k))) + x4 (kbrow3 y) := by
  unfold k3_pay1
  simp only [shapeCast_self, matmul]

  rw [ValueIdx.addf_apply, ValueIdx.addf_apply, Ideal.matmul_constant_zero_apply, Ideal.matmul_constant_zero_apply]
  rw [kd2_sum, kd2_sum]
  congr 1
  exact broadcastTo_apply x4 broadcasts_S1x128_S4000x128 y (kbrow3 y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

end Ker3

/-! ## The classifier head: two products with their bias rows, on the pooled 512 × 128 array

The head's one block is the whole array, and the kernel's two products have the very shapes of the host's, so
here the kernel body's stored value and the host's expression are one function of the five operands:
    out[r, c] = (∑ k, ((∑ j, G[r, j] · W1[j, k]) + b1[k]) · W2[k, c]) + b2[c]. -/
section Head
open Cert.ReferenceIdeal Cert.ReferenceIdeal.Gen

/-- The head over the whole pooled array, as the host program spells it. -/
def head (G : FVec Ideal S512x128 .f32) (W1 : FVec Ideal S128x64 .f32) (B1 : FVec Ideal S1x64 .f32)
    (W2 : FVec Ideal S64x10 .f32) (B2 : FVec Ideal S1x10 .f32) : FVec Ideal S512x10 .f32 :=
  addf (Host.dotGeneral (F := Ideal) dot_S512x64_S64x10_S512x10_1_0_0_1_n_n none
      (addf (Host.dotGeneral (F := Ideal) dot_S512x128_S128x64_S512x64_1_0_0_1_n_n none G W1)
        (broadcastInDim S512x64 ![0, 1] bcast_S1x64_S512x64_0_1 B1)) W2)
    (broadcastInDim S512x10 ![0, 1] bcast_S1x10_S512x10_0_1 B2)

/-- The first bias row's entry under column `k`. -/
abbrev hrow1 (i : S512x64.Idx) : S1x64.Idx := fun a => match a with
  | ⟨0, _⟩ => ⟨0, Nat.one_pos⟩
  | ⟨1, _⟩ => ⟨(i 1).val, (i 1).isLt⟩
/-- The second bias row's entry under column `c`. -/
abbrev hrow2 (i : S512x10.Idx) : S1x10.Idx := fun a => match a with
  | ⟨0, _⟩ => ⟨0, Nat.one_pos⟩
  | ⟨1, _⟩ => ⟨(i 1).val, (i 1).isLt⟩

theorem bias1_host (B1 : FVec Ideal S1x64 .f32) (i : S512x64.Idx) :
    broadcastInDim S512x64 ![0, 1] bcast_S1x64_S512x64_0_1 B1 i = B1 (hrow1 i) :=
  broadcastInDim_apply _ bcast_S1x64_S512x64_0_1 B1 i (hrow1 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
theorem bias2_host (B2 : FVec Ideal S1x10 .f32) (i : S512x10.Idx) :
    broadcastInDim S512x10 ![0, 1] bcast_S1x10_S512x10_0_1 B2 i = B2 (hrow2 i) :=
  broadcastInDim_apply _ bcast_S1x10_S512x10_0_1 B2 i (hrow2 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

theorem head_apply (G : FVec Ideal S512x128 .f32) (W1 : FVec Ideal S128x64 .f32) (B1 : FVec Ideal S1x64 .f32)
    (W2 : FVec Ideal S64x10 .f32) (B2 : FVec Ideal S1x10 .f32) (i : S512x10.Idx) :
    head G W1 B1 W2 B2 i
      = (∑ k : Fin 64, ((∑ j : Fin 128, G (rd4a_l (rd4b_l i k) j) * W1 (rd4a_r (rd4b_l i k) j)) + B1 (hrow1 (rd4b_l i k))) * W2 (rd4b_r i k))
        + B2 (hrow2 i) := by
  unfold head
  rw [ValueIdx.addf_apply, bias2_host]
  simp only [Host.dotGeneral]
  rw [Ideal.dotGeneral_apply, rd4b_sum]
  simp only [ValueIdx.addf_apply, Ideal.dotGeneral_apply, rd4a_sum]
  congr 1
  refine Finset.sum_congr rfl fun k _ => ?_
  rw [bias1_host]

end Head

section KerHead
open Cert.KernelIdeal Cert.KernelIdeal.Gen

theorem bias1_ker (x : FVec Ideal S1x64 .f32) (y : S512x64.Idx) :
    broadcastTo S512x64 x broadcasts_S1x64_S512x64 y = x (hrow1 y) :=
  broadcastTo_apply x broadcasts_S1x64_S512x64 y (hrow1 y) (fun a => match a with
    | ⟨0, _⟩ => by show 0 = if (1 : Nat) = 1 then 0 else (y 0).val; rw [if_pos rfl]
    | ⟨1, _⟩ => by show (y 1).val = if (64 : Nat) = 1 then 0 else (y 1).val; rw [if_neg (by decide)])
theorem bias2_ker (x : FVec Ideal S1x10 .f32) (y : S512x10.Idx) :
    broadcastTo S512x10 x broadcasts_S1x10_S512x10 y = x (hrow2 y) :=
  broadcastTo_apply x broadcasts_S1x10_S512x10 y (hrow2 y) (fun a => match a with
    | ⟨0, _⟩ => by show 0 = if (1 : Nat) = 1 then 0 else (y 0).val; rw [if_pos rfl]
    | ⟨1, _⟩ => by show (y 1).val = if (10 : Nat) = 1 then 0 else (y 1).val; rw [if_neg (by decide)])

/-- What the head's kernel body stores at entry `y`, from its five loaded (whole) operands. -/
theorem pay4_apply (x0 : FVec Ideal S512x128 .bf16) (x1 : FVec Ideal S128x64 .bf16) (x2 : FVec Ideal S1x64 .f32)
    (x3 : FVec Ideal S64x10 .bf16) (x4 : FVec Ideal S1x10 .f32) (y : S512x10.Idx) :
    k4_pay1 (F := Ideal) x0 x1 x2 x3 x4 y
      = (∑ k : Fin 64, ((∑ j : Fin 128, x0 (kd4a_l (kd4b_l y k) j) * x1 (kd4a_r (kd4b_l y k) j)) + x2 (hrow1 (kd4b_l y k))) * x3 (kd4b_r y k))
        + x4 (hrow2 y) := by
  unfold k4_pay1
  simp only [shapeCast_self, matmul]
  rw [ValueIdx.addf_apply, bias2_ker, Ideal.matmul_constant_zero_apply, kd4b_sum]
  simp only [ValueIdx.truncf_apply, ValueIdx.addf_apply, Ideal.matmul_constant_zero_apply, kd4a_sum]
  congr 1
  refine Finset.sum_congr rfl fun k _ => ?_
  rw [bias1_ker]

/-- The kernel body's stored array IS the host's head of the same five operands. -/
theorem pay4_eq_head (x0 : FVec Ideal S512x128 .bf16) (x1 : FVec Ideal S128x64 .bf16) (x2 : FVec Ideal S1x64 .f32)
    (x3 : FVec Ideal S64x10 .bf16) (x4 : FVec Ideal S1x10 .f32) :
    k4_pay1 (F := Ideal) x0 x1 x2 x3 x4 = head x0 x1 x2 x3 x4 := by
  funext y
  rw [pay4_apply, head_apply]
  rfl

end KerHead

end Cert.Bridge

end
-- ==== Proof.Region4.lean ====
/-
  Region 4 of the kernel program: the classifier head, one grid point whose blocks are the whole arrays.
  The one point loads the pooled 512 × 128 array, the two weight matrices and the two bias rows whole, and writes
  back the whole 512 × 10 result; so after the region the result array is the head of the arrays the region finds.
  Stated for arbitrary contents `V` at entry.
-/
import proofs.«153316_j43207370998446_1_alg».proof.Proof.Gen.KernelIdeal.Frame
import proofs.«153316_j43207370998446_1_alg».proof.Proof.Layers

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one grid point: every window sits at block (0, 0). -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- WHAT THE POINT WRITES BACK is the (one, whole) block of the head of the arrays the region finds. -/
theorem flushed_eq (c : Dev nD) (t : Fin cfg4.N) :
    (dat4 V c).flushed 5 t = ((cfg4.win 5).blk t).view.read (Elt Ideal)
      (Cert.Bridge.head (V c main_v88) (V c main_v90) (V c main_v93) (V c main_v92) (V c main_v94)) := by
  show (cfg4.win 5).cut (grid4.coords t) ((dat4 V c).after 5 t) = _
  rw [after4_5]
  unfold out4_5
  rw [View.canon_unit_zero hz]
  simp only [View.ld_unit_zero (S := S512x128) hz, View.ld_unit_zero (S := S128x64) hz, View.ld_unit_zero (S := S1x64) hz,
    View.ld_unit_zero (S := S64x10) hz, View.ld_unit_zero (S := S1x10) hz]
  obtain ⟨e00, e01, e10, e11, e20, e21, e30, e31, e40, e41, e50, e51⟩ := idx_facts t
  have h0 : iblk4 V c 0 t = V c main_v88 := funext fun z => by
    show V c main_v88 (((cfg4.win 0).blk t).view.emb z) = V c main_v88 z
    refine congrArg (V c main_v88) (funext fun a => Fin.ext ?_)
    match a with
    | ⟨0, _⟩ => show win4_0.index t (0 : Fin 2) * 512 + 1 * (z 0).val = (z 0).val; omega
    | ⟨1, _⟩ => show win4_0.index t (1 : Fin 2) * 128 + 1 * (z 1).val = (z 1).val; omega
  have h1 : iblk4 V c 1 t = V c main_v90 := funext fun z => by
    show V c main_v90 (((cfg4.win 1).blk t).view.emb z) = V c main_v90 z
    refine congrArg (V c main_v90) (funext fun a => Fin.ext ?_)
    match a with
    | ⟨0, _⟩ => show win4_1.index t (0 : Fin 2) * 128 + 1 * (z 0).val = (z 0).val; omega
    | ⟨1, _⟩ => show win4_1.index t (1 : Fin 2) * 64 + 1 * (z 1).val = (z 1).val; omega
  have h2 : iblk4 V c 2 t = V c main_v93 := funext fun z => by
    show V c main_v93 (((cfg4.win 2).blk t).view.emb z) = V c main_v93 z
    refine congrArg (V c main_v93) (funext fun a => Fin.ext ?_)
    match a with
    | ⟨0, _⟩ => show win4_2.index t (0 : Fin 2) * 1 + 1 * (z 0).val = (z 0).val; omega
    | ⟨1, _⟩ => show win4_2.index t (1 : Fin 2) * 64 + 1 * (z 1).val = (z 1).val; omega
  have h3 : iblk4 V c 3 t = V c main_v92 := funext fun z => by
    show V c main_v92 (((cfg4.win 3).blk t).view.emb z) = V c main_v92 z
    refine congrArg (V c main_v92) (funext fun a => Fin.ext ?_)
    match a with
    | ⟨0, _⟩ => show win4_3.index t (0 : Fin 2) * 64 + 1 * (z 0).val = (z 0).val; omega
    | ⟨1, _⟩ => show win4_3.index t (1 : Fin 2) * 10 + 1 * (z 1).val = (z 1).val; omega
  have h4 : iblk4 V c 4 t = V c main_v94 := funext fun z => by
    show V c main_v94 (((cfg4.win 4).blk t).view.emb z) = V c main_v94 z
    refine congrArg (V c main_v94) (funext fun a => Fin.ext ?_)
    match a with
    | ⟨0, _⟩ => show win4_4.index t (0 : Fin 2) * 1 + 1 * (z 0).val = (z 0).val; omega
    | ⟨1, _⟩ => show win4_4.index t (1 : Fin 2) * 10 + 1 * (z 1).val = (z 1).val; omega
  funext y
  refine (congrFun (Cert.Bridge.pay4_eq_head (iblk4 V c 0 t) (iblk4 V c 1 t) (iblk4 V c 2 t) (iblk4 V c 3 t) (iblk4 V c 4 t)) y).trans ?_
  rw [h0, h1, h2, h3, h4]
  show _ = Cert.Bridge.head (V c main_v88) (V c main_v90) (V c main_v93) (V c main_v92) (V c main_v94) (((cfg4.win 5).blk t).view.emb y)
  refine congrArg (Cert.Bridge.head (V c main_v88) (V c main_v90) (V c main_v93) (V c main_v92) (V c main_v94)) (funext fun a => Fin.ext ?_)
  match a with
  | ⟨0, _⟩ => show (y 0).val = win4_5.index t (0 : Fin 2) * 512 + 1 * (y 0).val; omega
  | ⟨1, _⟩ => show (y 1).val = win4_5.index t (1 : Fin 2) * 10 + 1 * (y 1).val; omega

/-- An index of the result array is in the point's block iff each coordinate is in the block's range on its axis. -/
theorem mem_blk (t : Fin cfg4.N) (i : S512x10.Idx) :
    i ∈ ((cfg4.win 5).blk t).view.set ↔ ∀ a : Fin 2, win4_5.index t a * S512x10.size a ≤ (i a).val ∧ (i a).val < win4_5.index t a * S512x10.size a + S512x10.size a := by
  show i ∈ ((View.whole main_v95).slice (win4_5.rect t)).set ↔ _
  rw [View.set_slice_whole, Rect.mem_set_unit]
  exact Iff.rfl

theorem idx_onto : ∃ t : Fin cfg4.N, win4_5.index t = ![0, 0] :=
  (by decide +kernel : ∃ t : Fin grid4.N, win4_5.index t = ![0, 0])

/-- THE ONE BLOCK COVERS THE ARRAY. -/
theorem cover (i : S512x10.Idx) : ∃ t : Fin cfg4.N, (cfg4.win 5).flush t = true ∧ i ∈ ((cfg4.win 5).blk t).view.set := by
  have hi0 : (i 0).val < 512 := (i 0).isLt
  have hi1 : (i 1).val < 10 := (i 1).isLt
  obtain ⟨t, ht⟩ := idx_onto
  have q0 : win4_5.index t (0 : Fin 2) = 0 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 512 ≤ (i 0).val ∧ (i 0).val < win4_5.index t (0 : Fin 2) * 512 + 512; omega
  | ⟨1, _⟩ => show win4_5.index t (1 : Fin 2) * 10 ≤ (i 1).val ∧ (i 1).val < win4_5.index t (1 : Fin 2) * 10 + 10; omega

/-- THE RESULT ARRAY after the region is the head of the arrays the region finds. -/
theorem final (c : Dev nD) : (dat4 V c).arrAt 5 cfg4.N
    = Cert.Bridge.head (V c main_v88) (V c main_v90) (V c main_v93) (V c main_v92) (V c main_v94) :=
  (dat4 V c).arrAt_eq_of_cover 5 _ (fun t _ => flushed_eq V c t) cover

end Cert.KernelIdeal.Region4

end
-- ==== Proof.BiasRow.lean ====
/-
  Two re-spellings that change no value.
  (1) Narrowing a 32-bit float array to 16-bit floats is, over the exact reals, the identity.
  (2) The bias row.  The kernel program reshapes a bias vector `b : [n]` to a row `[1, n]`; the host program broadcasts it
  into `[1, n]` along axis 1.  Both rows hold `b[c]` at entry `(0, c)`: they are the same array.
-/
import proofs.«153316_j43207370998446_1_alg».proof.KernelIdeal
import proofs.«153316_j43207370998446_1_alg».proof.ReferenceIdeal
import proofs.«153316_j43207370998446_1_alg».proof.Proof.Gen.KernelIdeal
import proofs.«153316_j43207370998446_1_alg».proof.Proof.Gen.ReferenceIdeal
import Idealize.ShloMosaic.Lib.Pipeline.Value
import Idealize.ShloMosaic.PureOps.Ideal.Laws

noncomputable section

namespace Cert.Bridge

open Idealize.ShloMosaic Idealize.ShloMosaic.TcCoe

/-- Narrowing to a 16-bit float is the identity on exact reals. -/
theorem truncf_id {s : Shape} (X : FVec Ideal s .f32) (h : FTy.bf16.bits < FTy.f32.bits) : truncf .bf16 X h = X := rfl

theorem bias_row64 (x : FVec Ideal Cert.KernelIdeal.S64 .f32) :
    shapeCast Cert.KernelIdeal.S1x64 x Cert.KernelIdeal.Facts₀.shapeCasts_S64_S1x64
      = broadcastInDim Cert.ReferenceIdeal.S1x64 ![1] Cert.ReferenceIdeal.Facts₀.bcast_S64_S1x64_1 x := by
  funext j
  refine (shapeCast_addUnit_apply ![64] x Cert.KernelIdeal.Facts₀.shapeCasts_S64_S1x64 j).trans ?_
  exact (broadcastInDim_apply _ Cert.ReferenceIdeal.Facts₀.bcast_S64_S1x64_1 x j (fun a => j a.succ) (fun a => match a with
    | ⟨0, _⟩ => by show (j 1).val = if (64 : Nat) = 1 then 0 else (j 1).val; rw [if_neg (by decide)])).symm

theorem bias_row128 (x : FVec Ideal Cert.KernelIdeal.S128 .f32) :
    shapeCast Cert.KernelIdeal.S1x128 x Cert.KernelIdeal.Facts₀.shapeCasts_S128_S1x128
      = broadcastInDim Cert.ReferenceIdeal.S1x128 ![1] Cert.ReferenceIdeal.Facts₀.bcast_S128_S1x128_1 x := by
  funext j
  refine (shapeCast_addUnit_apply ![128] x Cert.KernelIdeal.Facts₀.shapeCasts_S128_S1x128 j).trans ?_
  exact (broadcastInDim_apply _ Cert.ReferenceIdeal.Facts₀.bcast_S128_S1x128_1 x j (fun a => j a.succ) (fun a => match a with
    | ⟨0, _⟩ => by show (j 1).val = if (128 : Nat) = 1 then 0 else (j 1).val; rw [if_neg (by decide)])).symm

theorem bias_row10 (x : FVec Ideal Cert.KernelIdeal.S10 .f32) :
    shapeCast Cert.KernelIdeal.S1x10 x Cert.KernelIdeal.Facts₀.shapeCasts_S10_S1x10
      = broadcastInDim Cert.ReferenceIdeal.S1x10 ![1] Cert.ReferenceIdeal.Facts₀.bcast_S10_S1x10_1 x := by
  funext j
  refine (shapeCast_addUnit_apply ![10] x Cert.KernelIdeal.Facts₀.shapeCasts_S10_S1x10 j).trans ?_
  exact (broadcastInDim_apply _ Cert.ReferenceIdeal.Facts₀.bcast_S10_S1x10_1 x j (fun a => j a.succ) (fun a => match a with
    | ⟨0, _⟩ => by show (j 1).val = if (10 : Nat) = 1 then 0 else (j 1).val; rw [if_neg (by decide)])).symm

end Cert.Bridge

end
-- ==== Proof.Region3.lean ====
/-
  Region 3 of the kernel program: the graph-convolution layer on 25 blocks of 4000 rows.
  Grid point `t` loads rows 4000·t … 4000·t + 3999 of the two feature arrays, the two whole weight matrices and the
  bias row, and writes back rows 4000·t … 4000·t + 3999 of the result.  Row `r` of the whole-array layer reads only
  row `r` of the feature arrays, so what point `t` writes back is block `t` of the whole-array layer applied to the
  arrays as the region finds them; the 25 blocks cover the 100000 rows (row `r` lies in block `r / 4000`), so after
  the region the result array IS the whole-array layer of those arrays.  Stated for arbitrary contents `V` at entry.
-/
import proofs.«153316_j43207370998446_1_alg».proof.Proof.Gen.KernelIdeal.Frame
import proofs.«153316_j43207370998446_1_alg».proof.Proof.Layers

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row-blocked windows sit at block row `t`, column block 0; the
    weights and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT `t` WRITES BACK is block `t` of the whole-array layer of the arrays the region finds. -/
theorem flushed_eq (c : Dev nD) (t : Fin cfg3.N) :
    (dat3 V c).flushed 5 t = ((cfg3.win 5).blk t).view.read (Elt Ideal)
      (Cert.Bridge.gconv2 (V c main_v68) (V c main_v69) (V c main_v71) (V c main_v73) (V c main_v74)) := by
  show (cfg3.win 5).cut (grid3.coords t) ((dat3 V c).after 5 t) = _
  rw [after3_5]
  unfold out3_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts t
  funext y
  refine (Cert.Bridge.pay3_apply (iblk3 V c 0 t) (iblk3 V c 1 t) (iblk3 V c 2 t) (iblk3 V c 3 t) (iblk3 V c 4 t) y).trans ?_
  refine Eq.trans ?_ (Cert.Bridge.gconv2_apply _ _ _ _ _ _).symm
  have hy0 : (y 0).val < 4000 := (y 0).isLt
  have hy1 : (y 1).val < 128 := (y 1).isLt
  have hA : ∀ k : Fin 128, iblk3 V c 0 t (Cert.Bridge.Dots.kd2_l y k) = V c main_v68 (Cert.Bridge.Dots.rd2_l (((cfg3.win 5).blk t).view.emb y) k) := fun k => by
    show V c main_v68 (((cfg3.win 0).blk t).view.emb (Cert.Bridge.Dots.kd2_l y k)) = _
    refine congrArg (V c main_v68) (funext fun a => Fin.ext ?_)
    have hk : k.val < 128 := k.isLt
    match a with
    | ⟨0, _⟩ => show win3_0.index t (0 : Fin 2) * 4000 + 1 * (y 0).val = win3_5.index t (0 : Fin 2) * 4000 + 1 * (y 0).val; omega
    | ⟨1, _⟩ => show win3_0.index t (1 : Fin 2) * 128 + 1 * k.val = k.val; omega
  have hH : ∀ k : Fin 128, iblk3 V c 1 t (Cert.Bridge.Dots.kd2_l y k) = V c main_v69 (Cert.Bridge.Dots.rd2_l (((cfg3.win 5).blk t).view.emb y) k) := fun k => by
    show V c main_v69 (((cfg3.win 1).blk t).view.emb (Cert.Bridge.Dots.kd2_l y k)) = _
    refine congrArg (V c main_v69) (funext fun a => Fin.ext ?_)
    have hk : k.val < 128 := k.isLt
    match a with
    | ⟨0, _⟩ => show win3_1.index t (0 : Fin 2) * 4000 + 1 * (y 0).val = win3_5.index t (0 : Fin 2) * 4000 + 1 * (y 0).val; omega
    | ⟨1, _⟩ => show win3_1.index t (1 : Fin 2) * 128 + 1 * k.val = k.val; omega
  have hWR : ∀ k : Fin 128, iblk3 V c 2 t (Cert.Bridge.Dots.kd2_r y k) = V c main_v71 (Cert.Bridge.Dots.rd2_r (((cfg3.win 5).blk t).view.emb y) k) := fun k => by
    show V c main_v71 (((cfg3.win 2).blk t).view.emb (Cert.Bridge.Dots.kd2_r y k)) = _
    refine congrArg (V c main_v71) (funext fun a => Fin.ext ?_)
    have hk : k.val < 128 := k.isLt
    match a with
    | ⟨0, _⟩ => show win3_2.index t (0 : Fin 2) * 128 + 1 * k.val = k.val; omega
    | ⟨1, _⟩ => show win3_2.index t (1 : Fin 2) * 128 + 1 * (y 1).val = win3_5.index t (1 : Fin 2) * 128 + 1 * (y 1).val; omega
  have hWS : ∀ k : Fin 128, iblk3 V c 3 t (Cert.Bridge.Dots.kd2_r y k) = V c main_v73 (Cert.Bridge.Dots.rd2_r (((cfg3.win 5).blk t).view.emb y) k) := fun k => by
    show V c main_v73 (((cfg3.win 3).blk t).view.emb (Cert.Bridge.Dots.kd2_r y k)) = _
    refine congrArg (V c main_v73) (funext fun a => Fin.ext ?_)
    have hk : k.val < 128 := k.isLt
    match a with
    | ⟨0, _⟩ => show win3_3.index t (0 : Fin 2) * 128 + 1 * k.val = k.val; omega
    | ⟨1, _⟩ => show win3_3.index t (1 : Fin 2) * 128 + 1 * (y 1).val = win3_5.index t (1 : Fin 2) * 128 + 1 * (y 1).val; omega
  have hB : iblk3 V c 4 t (Cert.Bridge.kbrow3 y) = V c main_v74 (Cert.Bridge.brow2 (((cfg3.win 5).blk t).view.emb y)) := by
    show V c main_v74 (((cfg3.win 4).blk t).view.emb (Cert.Bridge.kbrow3 y)) = _
    refine congrArg (V c main_v74) (funext fun a => Fin.ext ?_)
    match a with
    | ⟨0, _⟩ => show win3_4.index t (0 : Fin 2) * 1 + 1 * 0 = 0; omega
    | ⟨1, _⟩ => show win3_4.index t (1 : Fin 2) * 128 + 1 * (y 1).val = win3_5.index t (1 : Fin 2) * 128 + 1 * (y 1).val; omega
  simp only [hA, hH, hWR, hWS, hB]

/-- An index of the result array is in point `t`'s block iff each coordinate is in the block's range on its axis. -/
theorem mem_blk (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v75).slice (win3_5.rect t)).set ↔ _
  rw [View.set_slice_whole, Rect.mem_set_unit]
  exact Iff.rfl

/-- Every block row below 25 is some point's. -/
theorem idx_onto : ∀ q : Fin 25, ∃ t : Fin cfg3.N, win3_5.index t = ![q.val, 0] :=
  (by decide +kernel : ∀ q : Fin 25, ∃ t : Fin grid3.N, win3_5.index t = ![q.val, 0])

/-- THE 25 BLOCKS COVER THE ARRAY: row `r` lies in block `r / 4000`. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto ⟨(i 0).val / 4000, by omega⟩
  have q0 : win3_5.index t (0 : Fin 2) = (i 0).val / 4000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- THE RESULT ARRAY after the region is the whole-array layer of the arrays the region finds. -/
theorem final (c : Dev nD) : (dat3 V c).arrAt 5 cfg3.N = (Cert.Bridge.gconv2 (V c main_v68) (V c main_v69) (V c main_v71) (V c main_v73) (V c main_v74)) :=
  (dat3 V c).arrAt_eq_of_cover 5 _ (fun t _ => flushed_eq V c t) cover

end Cert.KernelIdeal.Region3

end
-- ==== Proof.Region2.lean ====
/-
  Region 2 of the kernel program: the graph-convolution layer on 25 blocks of 4000 rows.
  Grid point `t` loads rows 4000·t … 4000·t + 3999 of the two feature arrays, the two whole weight matrices and the
  bias row, and writes back rows 4000·t … 4000·t + 3999 of the result.  Row `r` of the whole-array layer reads only
  row `r` of the feature arrays, so what point `t` writes back is block `t` of the whole-array layer applied to the
  arrays as the region finds them; the 25 blocks cover the 100000 rows (row `r` lies in block `r / 4000`), so after
  the region the result array IS the whole-array layer of those arrays.  Stated for arbitrary contents `V` at entry.
-/
import proofs.«153316_j43207370998446_1_alg».proof.Proof.Gen.KernelIdeal.Frame
import proofs.«153316_j43207370998446_1_alg».proof.Proof.Layers

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row-blocked windows sit at block row `t`, column block 0; the
    weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of the whole-array layer of the arrays the region finds. -/
theorem flushed_eq (c : Dev nD) (t : Fin cfg2.N) :
    (dat2 V c).flushed 5 t = ((cfg2.win 5).blk t).view.read (Elt Ideal)
      (Cert.Bridge.relu2 (Cert.Bridge.gconv2 (V c main_v50) (V c main_v51) (V c main_v53) (V c main_v55) (V c main_v56))) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts t
  funext y
  refine (Cert.Bridge.pay2_apply (iblk2 V c 0 t) (iblk2 V c 1 t) (iblk2 V c 2 t) (iblk2 V c 3 t) (iblk2 V c 4 t) y).trans ?_
  refine Eq.trans ?_ ((Cert.Bridge.relu2_apply _ _).trans (congrArg (fun z => max z _) (Cert.Bridge.gconv2_apply _ _ _ _ _ _))).symm
  have hy0 : (y 0).val < 4000 := (y 0).isLt
  have hy1 : (y 1).val < 128 := (y 1).isLt
  have hA : ∀ k : Fin 128, iblk2 V c 0 t (Cert.Bridge.Dots.kd2_l y k) = V c main_v50 (Cert.Bridge.Dots.rd2_l (((cfg2.win 5).blk t).view.emb y) k) := fun k => by
    show V c main_v50 (((cfg2.win 0).blk t).view.emb (Cert.Bridge.Dots.kd2_l y k)) = _
    refine congrArg (V c main_v50) (funext fun a => Fin.ext ?_)
    have hk : k.val < 128 := k.isLt
    match a with
    | ⟨0, _⟩ => show win2_0.index t (0 : Fin 2) * 4000 + 1 * (y 0).val = win2_5.index t (0 : Fin 2) * 4000 + 1 * (y 0).val; omega
    | ⟨1, _⟩ => show win2_0.index t (1 : Fin 2) * 128 + 1 * k.val = k.val; omega
  have hH : ∀ k : Fin 128, iblk2 V c 1 t (Cert.Bridge.Dots.kd2_l y k) = V c main_v51 (Cert.Bridge.Dots.rd2_l (((cfg2.win 5).blk t).view.emb y) k) := fun k => by
    show V c main_v51 (((cfg2.win 1).blk t).view.emb (Cert.Bridge.Dots.kd2_l y k)) = _
    refine congrArg (V c main_v51) (funext fun a => Fin.ext ?_)
    have hk : k.val < 128 := k.isLt
    match a with
    | ⟨0, _⟩ => show win2_1.index t (0 : Fin 2) * 4000 + 1 * (y 0).val = win2_5.index t (0 : Fin 2) * 4000 + 1 * (y 0).val; omega
    | ⟨1, _⟩ => show win2_1.index t (1 : Fin 2) * 128 + 1 * k.val = k.val; omega
  have hWR : ∀ k : Fin 128, iblk2 V c 2 t (Cert.Bridge.Dots.kd2_r y k) = V c main_v53 (Cert.Bridge.Dots.rd2_r (((cfg2.win 5).blk t).view.emb y) k) := fun k => by
    show V c main_v53 (((cfg2.win 2).blk t).view.emb (Cert.Bridge.Dots.kd2_r y k)) = _
    refine congrArg (V c main_v53) (funext fun a => Fin.ext ?_)
    have hk : k.val < 128 := k.isLt
    match a with
    | ⟨0, _⟩ => show win2_2.index t (0 : Fin 2) * 128 + 1 * k.val = k.val; omega
    | ⟨1, _⟩ => show win2_2.index t (1 : Fin 2) * 128 + 1 * (y 1).val = win2_5.index t (1 : Fin 2) * 128 + 1 * (y 1).val; omega
  have hWS : ∀ k : Fin 128, iblk2 V c 3 t (Cert.Bridge.Dots.kd2_r y k) = V c main_v55 (Cert.Bridge.Dots.rd2_r (((cfg2.win 5).blk t).view.emb y) k) := fun k => by
    show V c main_v55 (((cfg2.win 3).blk t).view.emb (Cert.Bridge.Dots.kd2_r y k)) = _
    refine congrArg (V c main_v55) (funext fun a => Fin.ext ?_)
    have hk : k.val < 128 := k.isLt
    match a with
    | ⟨0, _⟩ => show win2_3.index t (0 : Fin 2) * 128 + 1 * k.val = k.val; omega
    | ⟨1, _⟩ => show win2_3.index t (1 : Fin 2) * 128 + 1 * (y 1).val = win2_5.index t (1 : Fin 2) * 128 + 1 * (y 1).val; omega
  have hB : iblk2 V c 4 t (Cert.Bridge.kbrow2 y) = V c main_v56 (Cert.Bridge.brow2 (((cfg2.win 5).blk t).view.emb y)) := by
    show V c main_v56 (((cfg2.win 4).blk t).view.emb (Cert.Bridge.kbrow2 y)) = _
    refine congrArg (V c main_v56) (funext fun a => Fin.ext ?_)
    match a with
    | ⟨0, _⟩ => show win2_4.index t (0 : Fin 2) * 1 + 1 * 0 = 0; omega
    | ⟨1, _⟩ => show win2_4.index t (1 : Fin 2) * 128 + 1 * (y 1).val = win2_5.index t (1 : Fin 2) * 128 + 1 * (y 1).val; omega
  simp only [hA, hH, hWR, hWS, hB]

/-- An index of the result array is in point `t`'s block iff each coordinate is in the block's range on its axis. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v57).slice (win2_5.rect t)).set ↔ _
  rw [View.set_slice_whole, Rect.mem_set_unit]
  exact Iff.rfl

/-- Every block row below 25 is some point's. -/
theorem idx_onto : ∀ q : Fin 25, ∃ t : Fin cfg2.N, win2_5.index t = ![q.val, 0] :=
  (by decide +kernel : ∀ q : Fin 25, ∃ t : Fin grid2.N, win2_5.index t = ![q.val, 0])

/-- THE 25 BLOCKS COVER THE ARRAY: row `r` lies in block `r / 4000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE RESULT ARRAY after the region is the whole-array layer of the arrays the region finds. -/
theorem final (c : Dev nD) : (dat2 V c).arrAt 5 cfg2.N = (Cert.Bridge.relu2 (Cert.Bridge.gconv2 (V c main_v50) (V c main_v51) (V c main_v53) (V c main_v55) (V c main_v56))) :=
  (dat2 V c).arrAt_eq_of_cover 5 _ (fun t _ => flushed_eq V c t) cover

end Cert.KernelIdeal.Region2

end
-- ==== Proof.Region1.lean ====
/-
  Region 1 of the kernel program: the graph-convolution layer on 25 blocks of 4000 rows.
  Grid point `t` loads rows 4000·t … 4000·t + 3999 of the two feature arrays, the two whole weight matrices and the
  bias row, and writes back rows 4000·t … 4000·t + 3999 of the result.  Row `r` of the whole-array layer reads only
  row `r` of the feature arrays, so what point `t` writes back is block `t` of the whole-array layer applied to the
  arrays as the region finds them; the 25 blocks cover the 100000 rows (row `r` lies in block `r / 4000`), so after
  the region the result array IS the whole-array layer of those arrays.  Stated for arbitrary contents `V` at entry.
-/
import proofs.«153316_j43207370998446_1_alg».proof.Proof.Gen.KernelIdeal.Frame
import proofs.«153316_j43207370998446_1_alg».proof.Proof.Layers

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row-blocked windows sit at block row `t`, column block 0; the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the whole-array layer of the arrays the region finds. -/
theorem flushed_eq (c : Dev nD) (t : Fin cfg1.N) :
    (dat1 V c).flushed 5 t = ((cfg1.win 5).blk t).view.read (Elt Ideal)
      (Cert.Bridge.relu1 (Cert.Bridge.gconv1 (V c main_v32) (V c main_v33) (V c main_v35) (V c main_v37) (V c main_v38))) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x128) hz, View.ld_unit_zero (S := S1x128) hz, View.ld_unit_zero (S := S4000x128) hz]
  obtain ⟨e00, e01, e10, e11, e20, e21, e30, e31, e40, e41, e50, e51⟩ := idx_facts t
  funext y
  refine (Cert.Bridge.pay1_apply (iblk1 V c 0 t) (iblk1 V c 1 t) (iblk1 V c 2 t) (iblk1 V c 3 t) (iblk1 V c 4 t) y).trans ?_
  refine Eq.trans ?_ ((Cert.Bridge.relu1_apply _ _).trans (congrArg (fun z => max z _) (Cert.Bridge.gconv1_apply _ _ _ _ _ _))).symm
  have hy0 : (y 0).val < 4000 := (y 0).isLt
  have hy1 : (y 1).val < 128 := (y 1).isLt
  have hA : ∀ k : Fin 64, iblk1 V c 0 t (Cert.Bridge.Dots.kd1_l y k) = V c main_v32 (Cert.Bridge.Dots.rd1_l (((cfg1.win 5).blk t).view.emb y) k) := fun k => by
    show V c main_v32 (((cfg1.win 0).blk t).view.emb (Cert.Bridge.Dots.kd1_l y k)) = _
    refine congrArg (V c main_v32) (funext fun a => Fin.ext ?_)
    have hk : k.val < 64 := k.isLt
    match a with
    | ⟨0, _⟩ => show win1_0.index t (0 : Fin 2) * 4000 + 1 * (y 0).val = win1_5.index t (0 : Fin 2) * 4000 + 1 * (y 0).val; omega
    | ⟨1, _⟩ => show win1_0.index t (1 : Fin 2) * 64 + 1 * k.val = k.val; omega
  have hH : ∀ k : Fin 64, iblk1 V c 1 t (Cert.Bridge.Dots.kd1_l y k) = V c main_v33 (Cert.Bridge.Dots.rd1_l (((cfg1.win 5).blk t).view.emb y) k) := fun k => by
    show V c main_v33 (((cfg1.win 1).blk t).view.emb (Cert.Bridge.Dots.kd1_l y k)) = _
    refine congrArg (V c main_v33) (funext fun a => Fin.ext ?_)
    have hk : k.val < 64 := k.isLt
    match a with
    | ⟨0, _⟩ => show win1_1.index t (0 : Fin 2) * 4000 + 1 * (y 0).val = win1_5.index t (0 : Fin 2) * 4000 + 1 * (y 0).val; omega
    | ⟨1, _⟩ => show win1_1.index t (1 : Fin 2) * 64 + 1 * k.val = k.val; omega
  have hWR : ∀ k : Fin 64, iblk1 V c 2 t (Cert.Bridge.Dots.kd1_r y k) = V c main_v35 (Cert.Bridge.Dots.rd1_r (((cfg1.win 5).blk t).view.emb y) k) := fun k => by
    show V c main_v35 (((cfg1.win 2).blk t).view.emb (Cert.Bridge.Dots.kd1_r y k)) = _
    refine congrArg (V c main_v35) (funext fun a => Fin.ext ?_)
    have hk : k.val < 64 := k.isLt
    match a with
    | ⟨0, _⟩ => show win1_2.index t (0 : Fin 2) * 64 + 1 * k.val = k.val; omega
    | ⟨1, _⟩ => show win1_2.index t (1 : Fin 2) * 128 + 1 * (y 1).val = win1_5.index t (1 : Fin 2) * 128 + 1 * (y 1).val; omega
  have hWS : ∀ k : Fin 64, iblk1 V c 3 t (Cert.Bridge.Dots.kd1_r y k) = V c main_v37 (Cert.Bridge.Dots.rd1_r (((cfg1.win 5).blk t).view.emb y) k) := fun k => by
    show V c main_v37 (((cfg1.win 3).blk t).view.emb (Cert.Bridge.Dots.kd1_r y k)) = _
    refine congrArg (V c main_v37) (funext fun a => Fin.ext ?_)
    have hk : k.val < 64 := k.isLt
    match a with
    | ⟨0, _⟩ => show win1_3.index t (0 : Fin 2) * 64 + 1 * k.val = k.val; omega
    | ⟨1, _⟩ => show win1_3.index t (1 : Fin 2) * 128 + 1 * (y 1).val = win1_5.index t (1 : Fin 2) * 128 + 1 * (y 1).val; omega
  have hB : iblk1 V c 4 t (Cert.Bridge.kbrow1 y) = V c main_v38 (Cert.Bridge.brow1 (((cfg1.win 5).blk t).view.emb y)) := by
    show V c main_v38 (((cfg1.win 4).blk t).view.emb (Cert.Bridge.kbrow1 y)) = _
    refine congrArg (V c main_v38) (funext fun a => Fin.ext ?_)
    match a with
    | ⟨0, _⟩ => show win1_4.index t (0 : Fin 2) * 1 + 1 * 0 = 0; omega
    | ⟨1, _⟩ => show win1_4.index t (1 : Fin 2) * 128 + 1 * (y 1).val = win1_5.index t (1 : Fin 2) * 128 + 1 * (y 1).val; omega
  simp only [hA, hH, hWR, hWS, hB]

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v39).slice (win1_5.rect t)).set ↔ _
  rw [View.set_slice_whole, Rect.mem_set_unit]
  exact Iff.rfl

/-- Every block row below 25 is some point's. -/
theorem idx_onto : ∀ q : Fin 25, ∃ t : Fin cfg1.N, win1_5.index t = ![q.val, 0] :=
  (by decide +kernel : ∀ q : Fin 25, ∃ t : Fin grid1.N, win1_5.index t = ![q.val, 0])

/-- THE 25 BLOCKS COVER THE ARRAY: row `r` lies in block `r / 4000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE RESULT ARRAY after the region is the whole-array layer of the arrays the region finds. -/
theorem final (c : Dev nD) : (dat1 V c).arrAt 5 cfg1.N = (Cert.Bridge.relu1 (Cert.Bridge.gconv1 (V c main_v32) (V c main_v33) (V c main_v35) (V c main_v37) (V c main_v38))) :=
  (dat1 V c).arrAt_eq_of_cover 5 _ (fun t _ => flushed_eq V c t) cover

end Cert.KernelIdeal.Region1

end
-- ==== Proof.Region0.lean ====
/-
  Region 0 of the kernel program: the graph-convolution layer on 25 blocks of 4000 rows.
  Grid point `t` loads rows 4000·t … 4000·t + 3999 of the two feature arrays, the two whole weight matrices and the
  bias row, and writes back rows 4000·t … 4000·t + 3999 of the result.  Row `r` of the whole-array layer reads only
  row `r` of the feature arrays, so what point `t` writes back is block `t` of the whole-array layer applied to the
  arrays as the region finds them; the 25 blocks cover the 100000 rows (row `r` lies in block `r / 4000`), so after
  the region the result array IS the whole-array layer of those arrays.  Stated for arbitrary contents `V` at entry.
-/
import proofs.«153316_j43207370998446_1_alg».proof.Proof.Gen.KernelIdeal.Frame
import proofs.«153316_j43207370998446_1_alg».proof.Proof.Layers

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row-blocked windows sit at block row `t`, column block 0; the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the whole-array layer of the arrays the region finds. -/
theorem flushed_eq (c : Dev nD) (t : Fin cfg0.N) :
    (dat0 V c).flushed 5 t = ((cfg0.win 5).blk t).view.read (Elt Ideal)
      (Cert.Bridge.relu0 (Cert.Bridge.gconv0 (V c main_v14) (V c main_v15) (V c main_v17) (V c main_v19) (V c main_v20))) := by
  show (cfg0.win 5).cut (grid0.coords t) ((dat0 V c).after 5 t) = _
  rw [after0_5]
  unfold out0_5
  rw [View.canon_unit_zero hz]
  simp only [View.ld_unit_zero (S := S4000x64) hz, View.ld_unit_zero (S := S64x64) hz, View.ld_unit_zero (S := S1x64) hz]
  obtain ⟨e00, e01, e10, e11, e20, e21, e30, e31, e40, e41, e50, e51⟩ := idx_facts t
  funext y
  refine (Cert.Bridge.pay0_apply (iblk0 V c 0 t) (iblk0 V c 1 t) (iblk0 V c 2 t) (iblk0 V c 3 t) (iblk0 V c 4 t) y).trans ?_
  refine Eq.trans ?_ ((Cert.Bridge.relu0_apply _ _).trans (congrArg (fun z => max z _) (Cert.Bridge.gconv0_apply _ _ _ _ _ _))).symm
  have hy0 : (y 0).val < 4000 := (y 0).isLt
  have hy1 : (y 1).val < 64 := (y 1).isLt
  have hA : ∀ k : Fin 64, iblk0 V c 0 t (Cert.Bridge.Dots.kd0_l y k) = V c main_v14 (Cert.Bridge.Dots.rd0_l (((cfg0.win 5).blk t).view.emb y) k) := fun k => by
    show V c main_v14 (((cfg0.win 0).blk t).view.emb (Cert.Bridge.Dots.kd0_l y k)) = _
    refine congrArg (V c main_v14) (funext fun a => Fin.ext ?_)
    have hk : k.val < 64 := k.isLt
    match a with
    | ⟨0, _⟩ => show win0_0.index t (0 : Fin 2) * 4000 + 1 * (y 0).val = win0_5.index t (0 : Fin 2) * 4000 + 1 * (y 0).val; omega
    | ⟨1, _⟩ => show win0_0.index t (1 : Fin 2) * 64 + 1 * k.val = k.val; omega
  have hH : ∀ k : Fin 64, iblk0 V c 1 t (Cert.Bridge.Dots.kd0_l y k) = V c main_v15 (Cert.Bridge.Dots.rd0_l (((cfg0.win 5).blk t).view.emb y) k) := fun k => by
    show V c main_v15 (((cfg0.win 1).blk t).view.emb (Cert.Bridge.Dots.kd0_l y k)) = _
    refine congrArg (V c main_v15) (funext fun a => Fin.ext ?_)
    have hk : k.val < 64 := k.isLt
    match a with
    | ⟨0, _⟩ => show win0_1.index t (0 : Fin 2) * 4000 + 1 * (y 0).val = win0_5.index t (0 : Fin 2) * 4000 + 1 * (y 0).val; omega
    | ⟨1, _⟩ => show win0_1.index t (1 : Fin 2) * 64 + 1 * k.val = k.val; omega
  have hWR : ∀ k : Fin 64, iblk0 V c 2 t (Cert.Bridge.Dots.kd0_r y k) = V c main_v17 (Cert.Bridge.Dots.rd0_r (((cfg0.win 5).blk t).view.emb y) k) := fun k => by
    show V c main_v17 (((cfg0.win 2).blk t).view.emb (Cert.Bridge.Dots.kd0_r y k)) = _
    refine congrArg (V c main_v17) (funext fun a => Fin.ext ?_)
    have hk : k.val < 64 := k.isLt
    match a with
    | ⟨0, _⟩ => show win0_2.index t (0 : Fin 2) * 64 + 1 * k.val = k.val; omega
    | ⟨1, _⟩ => show win0_2.index t (1 : Fin 2) * 64 + 1 * (y 1).val = win0_5.index t (1 : Fin 2) * 64 + 1 * (y 1).val; omega
  have hWS : ∀ k : Fin 64, iblk0 V c 3 t (Cert.Bridge.Dots.kd0_r y k) = V c main_v19 (Cert.Bridge.Dots.rd0_r (((cfg0.win 5).blk t).view.emb y) k) := fun k => by
    show V c main_v19 (((cfg0.win 3).blk t).view.emb (Cert.Bridge.Dots.kd0_r y k)) = _
    refine congrArg (V c main_v19) (funext fun a => Fin.ext ?_)
    have hk : k.val < 64 := k.isLt
    match a with
    | ⟨0, _⟩ => show win0_3.index t (0 : Fin 2) * 64 + 1 * k.val = k.val; omega
    | ⟨1, _⟩ => show win0_3.index t (1 : Fin 2) * 64 + 1 * (y 1).val = win0_5.index t (1 : Fin 2) * 64 + 1 * (y 1).val; omega
  have hB : iblk0 V c 4 t (Cert.Bridge.kbrow0 y) = V c main_v20 (Cert.Bridge.brow0 (((cfg0.win 5).blk t).view.emb y)) := by
    show V c main_v20 (((cfg0.win 4).blk t).view.emb (Cert.Bridge.kbrow0 y)) = _
    refine congrArg (V c main_v20) (funext fun a => Fin.ext ?_)
    match a with
    | ⟨0, _⟩ => show win0_4.index t (0 : Fin 2) * 1 + 1 * 0 = 0; omega
    | ⟨1, _⟩ => show win0_4.index t (1 : Fin 2) * 64 + 1 * (y 1).val = win0_5.index t (1 : Fin 2) * 64 + 1 * (y 1).val; omega
  simp only [hA, hH, hWR, hWS, hB]

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v21).slice (win0_5.rect t)).set ↔ _
  rw [View.set_slice_whole, Rect.mem_set_unit]
  exact Iff.rfl

/-- Every block row below 25 is some point's. -/
theorem idx_onto : ∀ q : Fin 25, ∃ t : Fin cfg0.N, win0_5.index t = ![q.val, 0] :=
  (by decide +kernel : ∀ q : Fin 25, ∃ t : Fin grid0.N, win0_5.index t = ![q.val, 0])

/-- THE 25 BLOCKS COVER THE ARRAY: row `r` lies in block `r / 4000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- THE RESULT ARRAY after the region is the whole-array layer of the arrays the region finds. -/
theorem final (c : Dev nD) : (dat0 V c).arrAt 5 cfg0.N = (Cert.Bridge.relu0 (Cert.Bridge.gconv0 (V c main_v14) (V c main_v15) (V c main_v17) (V c main_v19) (V c main_v20))) :=
  (dat0 V c).arrAt_eq_of_cover 5 _ (fun t _ => flushed_eq V c t) cover

end Cert.KernelIdeal.Region0

end
-- ==== Proof.Stage0.lean ====
/-
  The first layer, in the host program's words.  Before region 0 the kernel program's host operations compute, from
  the launch memory, exactly what the host program computes: the edge endpoints (two rows of the edge array, a
  negative source index wrapped by + 100000), the sum over each node's incoming edges of its neighbours' features
  (gather, then scatter-add into zeros), the two transposed weight matrices and the bias as a row; their narrowing
  to 16-bit floats is the identity on exact reals.  Region 0 then leaves the whole-array layer of those arrays in
  its result buffer, which is the host program's first layer, term for term.
-/
import proofs.«153316_j43207370998446_1_alg».proof.Proof.Gen.KernelIdeal.Frame
import proofs.«153316_j43207370998446_1_alg».proof.Proof.Gen.ReferenceIdeal.Read
import proofs.«153316_j43207370998446_1_alg».proof.Proof.Region0
import proofs.«153316_j43207370998446_1_alg».proof.Proof.BiasRow

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The edge sources (row 0 of the edge array) and destinations (row 1), as every later stretch reads them -/

set_option maxHeartbeats 4000000 in
theorem W1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

set_option maxHeartbeats 4000000 in
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-! ## What the first stretch computes for the region's five operands -/

set_option maxHeartbeats 4000000 in
theorem V1_v14 (c : Dev nD) : V1 m ρ c main_v14 = Cert.ReferenceIdeal.Read.val_main_v13 (F := Ideal) (m ((c : Thread nD τ).loc main_arg0)) (m ((c : Thread nD τ).loc main_arg1)) := by
  show StableHlo.after hostOps0 (W0 m ρ c) (Proc.devRef .tc main_v14) = _
  after_results_simp
  refine (Cert.Bridge.truncf_id _ _).trans ?_
  rfl

set_option maxHeartbeats 4000000 in
theorem V1_v15 (c : Dev nD) : V1 m ρ c main_v15 = (m ((c : Thread nD τ).loc main_arg0)) := by
  show StableHlo.after hostOps0 (W0 m ρ c) (Proc.devRef .tc main_v15) = _
  after_results_simp
  exact Cert.Bridge.truncf_id _ _

set_option maxHeartbeats 4000000 in
theorem V1_v17 (c : Dev nD) : V1 m ρ c main_v17 = Cert.ReferenceIdeal.Read.val_main_v14 (F := Ideal) (m ((c : Thread nD τ).loc main_arg3)) := by
  show StableHlo.after hostOps0 (W0 m ρ c) (Proc.devRef .tc main_v17) = _
  after_results_simp
  refine (Cert.Bridge.truncf_id _ _).trans ?_
  rfl

set_option maxHeartbeats 4000000 in
theorem V1_v19 (c : Dev nD) : V1 m ρ c main_v19 = Cert.ReferenceIdeal.Read.val_main_v16 (F := Ideal) (m ((c : Thread nD τ).loc main_arg4)) := by
  show StableHlo.after hostOps0 (W0 m ρ c) (Proc.devRef .tc main_v19) = _
  after_results_simp
  refine (Cert.Bridge.truncf_id _ _).trans ?_
  rfl

set_option maxHeartbeats 4000000 in
theorem V1_v20 (c : Dev nD) : V1 m ρ c main_v20 = Cert.ReferenceIdeal.Read.val_main_v19 (F := Ideal) (m ((c : Thread nD τ).loc main_arg5)) := by
  show StableHlo.after hostOps0 (W0 m ρ c) (Proc.devRef .tc main_v20) = _
  after_results_simp
  exact Cert.Bridge.bias_row64 _

set_option maxHeartbeats 4000000 in
/-- After region 0 the first layer's result buffer holds the host program's first layer of the arguments. -/
theorem stage0 (c : Dev nD) : W2 m ρ c (Proc.devRef .tc main_v21)
    = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [Region0.final (V1 m ρ) c, V1_v14 m ρ c, V1_v15 m ρ c, V1_v17 m ρ c, V1_v19 m ρ c, V1_v20 m ρ c]
  rfl

end Cert.KernelIdeal.Chain

end
-- ==== Proof.Stage1.lean ====
/-
  Layer 2, in the host program's words.  The stretch of host operations before region 1 reads the previous layer's
  result, the edge endpoints computed once at the start, and this layer's weights and bias: from them it computes
  what the host program computes (the neighbour sum by gather and scatter-add, the transposed weights, the bias row),
  the narrowing to 16-bit floats being the identity on exact reals.  Region 1 then leaves the whole-array layer of
  those arrays in its result buffer: the host program's layer 2, term for term.
-/
import proofs.«153316_j43207370998446_1_alg».proof.Proof.Gen.KernelIdeal.Frame
import proofs.«153316_j43207370998446_1_alg».proof.Proof.Gen.ReferenceIdeal.Read
import proofs.«153316_j43207370998446_1_alg».proof.Proof.Region1
import proofs.«153316_j43207370998446_1_alg».proof.Proof.BiasRow
import proofs.«153316_j43207370998446_1_alg».proof.Proof.Stage0

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the buffers read by this stretch hold at its entry -/

theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_v1 m ρ c)

theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)

set_option maxHeartbeats 4000000 in
theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

set_option maxHeartbeats 4000000 in
theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

set_option maxHeartbeats 4000000 in
theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)

/-! ## What the stretch computes for the region's five operands -/

set_option maxHeartbeats 4000000 in
theorem V3_v32 (c : Dev nD) : V3 m ρ c main_v32 = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v32) = _
  after_results_simp
  rw [W2_v1 m ρ c, W2_v3 m ρ c, stage0 m ρ c]
  refine (Cert.Bridge.truncf_id _ _).trans ?_
  rfl

set_option maxHeartbeats 4000000 in
theorem V3_v33 (c : Dev nD) : V3 m ρ c main_v33 = Cert.ReferenceIdeal.Read.val_main_v22 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v33) = _
  after_results_simp
  rw [stage0 m ρ c]
  exact Cert.Bridge.truncf_id _ _

set_option maxHeartbeats 4000000 in
theorem V3_v35 (c : Dev nD) : V3 m ρ c main_v35 = Cert.ReferenceIdeal.Read.val_main_v33 (F := Ideal) (m ((c : Thread nD τ).loc main_arg6)) := by
  show StableHlo.after hostOps1 (W2 m ρ c) (Proc.devRef .tc main_v35) = _
  after_results_simp
  rw [W2_arg6 m ρ c]
  refine (Cert.Bridge.truncf_id _ _).trans ?_
  rfl

set_option maxHeartbeats 4000000 in
theorem V3_v37 (c : Dev nD) : V3 m ρ c main_v37 = Cert.ReferenceIdeal.Read.val_main_v35 (F := Ideal) (m ((c : Thread nD τ).loc main_arg7)) := by
  show StableHlo.after hostOps1 (W2 m ρ c) (Proc.devRef .tc main_v37) = _
  after_results_simp
  rw [W2_arg7 m ρ c]
  refine (Cert.Bridge.truncf_id _ _).trans ?_
  rfl

set_option maxHeartbeats 4000000 in
theorem V3_v38 (c : Dev nD) : V3 m ρ c main_v38 = Cert.ReferenceIdeal.Read.val_main_v38 (F := Ideal) (m ((c : Thread nD τ).loc main_arg8)) := by
  show StableHlo.after hostOps1 (W2 m ρ c) (Proc.devRef .tc main_v38) = _
  after_results_simp
  rw [W2_arg8 m ρ c]
  exact Cert.Bridge.bias_row128 _

set_option maxHeartbeats 4000000 in
/-- After region 1 its result buffer holds the host program's layer of the arguments. -/
theorem stage1 (c : Dev nD) : W4 m ρ c (Proc.devRef .tc main_v39)
    = Cert.ReferenceIdeal.Read.val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Region1.final (V3 m ρ) c, V3_v32 m ρ c, V3_v33 m ρ c, V3_v35 m ρ c, V3_v37 m ρ c, V3_v38 m ρ c]
  rfl

end Cert.KernelIdeal.Chain

end
-- ==== Proof.Stage2.lean ====
/-
  Layer 3, in the host program's words.  The stretch of host operations before region 2 reads the previous layer's
  result, the edge endpoints computed once at the start, and this layer's weights and bias: from them it computes
  what the host program computes (the neighbour sum by gather and scatter-add, the transposed weights, the bias row),
  the narrowing to 16-bit floats being the identity on exact reals.  Region 2 then leaves the whole-array layer of
  those arrays in its result buffer: the host program's layer 3, term for term.
-/
import proofs.«153316_j43207370998446_1_alg».proof.Proof.Gen.KernelIdeal.Frame
import proofs.«153316_j43207370998446_1_alg».proof.Proof.Gen.ReferenceIdeal.Read
import proofs.«153316_j43207370998446_1_alg».proof.Proof.Region2
import proofs.«153316_j43207370998446_1_alg».proof.Proof.BiasRow
import proofs.«153316_j43207370998446_1_alg».proof.Proof.Stage1

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the buffers read by this stretch hold at its entry -/

set_option maxHeartbeats 4000000 in
theorem W4_v1 (c : Dev nD) : W4 m ρ c (Proc.devRef .tc main_v1) = Cert.ReferenceIdeal.Read.val_main_v1 (F := Ideal) (m ((c : Thread nD τ).loc main_arg1)) :=
  (W4_of_ne m ρ c main_v1 (by decide)).trans (by
    show StableHlo.after hostOps1 (W2 m ρ c) (Proc.devRef .tc main_v1) = _
    after_results_simp
    exact W2_v1 m ρ c)

set_option maxHeartbeats 4000000 in
theorem W4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (by
    show StableHlo.after hostOps1 (W2 m ρ c) (Proc.devRef .tc main_v3) = _
    after_results_simp
    exact W2_v3 m ρ c)

set_option maxHeartbeats 4000000 in
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

set_option maxHeartbeats 4000000 in
theorem W4_arg9 (c : Dev nD) : W4 m ρ c (Proc.devRef .tc main_arg9) = (m ((c : Thread nD τ).loc main_arg9)) :=
  (W4_of_ne m ρ c main_arg9 (by decide)).trans (by
    show StableHlo.after hostOps1 (W2 m ρ c) (Proc.devRef .tc main_arg9) = _
    after_results_simp
    exact W2_arg9 m ρ c)

set_option maxHeartbeats 4000000 in
theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)

set_option maxHeartbeats 4000000 in
theorem W4_arg10 (c : Dev nD) : W4 m ρ c (Proc.devRef .tc main_arg10) = (m ((c : Thread nD τ).loc main_arg10)) :=
  (W4_of_ne m ρ c main_arg10 (by decide)).trans (by
    show StableHlo.after hostOps1 (W2 m ρ c) (Proc.devRef .tc main_arg10) = _
    after_results_simp
    exact W2_arg10 m ρ c)

set_option maxHeartbeats 4000000 in
theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp <;> rfl)

set_option maxHeartbeats 4000000 in
theorem W4_arg11 (c : Dev nD) : W4 m ρ c (Proc.devRef .tc main_arg11) = (m ((c : Thread nD τ).loc main_arg11)) :=
  (W4_of_ne m ρ c main_arg11 (by decide)).trans (by
    show StableHlo.after hostOps1 (W2 m ρ c) (Proc.devRef .tc main_arg11) = _
    after_results_simp
    exact W2_arg11 m ρ c)

/-! ## What the stretch computes for the region's five operands -/

set_option maxHeartbeats 4000000 in
theorem V5_v50 (c : Dev nD) : V5 m ρ c main_v50 = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v50) = _
  after_results_simp
  rw [W4_v1 m ρ c, W4_v3 m ρ c, stage1 m ρ c]
  refine (Cert.Bridge.truncf_id _ _).trans ?_
  rfl

set_option maxHeartbeats 4000000 in
theorem V5_v51 (c : Dev nD) : V5 m ρ c main_v51 = Cert.ReferenceIdeal.Read.val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v51) = _
  after_results_simp
  rw [stage1 m ρ c]
  exact Cert.Bridge.truncf_id _ _

set_option maxHeartbeats 4000000 in
theorem V5_v53 (c : Dev nD) : V5 m ρ c main_v53 = Cert.ReferenceIdeal.Read.val_main_v52 (F := Ideal) (m ((c : Thread nD τ).loc main_arg9)) := by
  show StableHlo.after hostOps2 (W4 m ρ c) (Proc.devRef .tc main_v53) = _
  after_results_simp
  rw [W4_arg9 m ρ c]
  refine (Cert.Bridge.truncf_id _ _).trans ?_
  rfl

set_option maxHeartbeats 4000000 in
theorem V5_v55 (c : Dev nD) : V5 m ρ c main_v55 = Cert.ReferenceIdeal.Read.val_main_v54 (F := Ideal) (m ((c : Thread nD τ).loc main_arg10)) := by
  show StableHlo.after hostOps2 (W4 m ρ c) (Proc.devRef .tc main_v55) = _
  after_results_simp
  rw [W4_arg10 m ρ c]
  refine (Cert.Bridge.truncf_id _ _).trans ?_
  rfl

set_option maxHeartbeats 4000000 in
theorem V5_v56 (c : Dev nD) : V5 m ρ c main_v56 = Cert.ReferenceIdeal.Read.val_main_v57 (F := Ideal) (m ((c : Thread nD τ).loc main_arg11)) := by
  show StableHlo.after hostOps2 (W4 m ρ c) (Proc.devRef .tc main_v56) = _
  after_results_simp
  rw [W4_arg11 m ρ c]
  exact Cert.Bridge.bias_row128 _

set_option maxHeartbeats 4000000 in
/-- After region 2 its result buffer holds the host program's layer of the arguments. -/
theorem stage2 (c : Dev nD) : W6 m ρ c (Proc.devRef .tc main_v57)
    = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ?_
  rw [Region2.final (V5 m ρ) c, V5_v50 m ρ c, V5_v51 m ρ c, V5_v53 m ρ c, V5_v55 m ρ c, V5_v56 m ρ c]
  rfl

end Cert.KernelIdeal.Chain

end
-- ==== Proof.Stage3.lean ====
/-
  Layer 4, in the host program's words.  The stretch of host operations before region 3 reads the previous layer's
  result, the edge endpoints computed once at the start, and this layer's weights and bias: from them it computes
  what the host program computes (the neighbour sum by gather and scatter-add, the transposed weights, the bias row),
  the narrowing to 16-bit floats being the identity on exact reals.  Region 3 then leaves the whole-array layer of
  those arrays in its result buffer: the host program's layer 4, term for term (this layer has no maximum with zero).
-/
import proofs.«153316_j43207370998446_1_alg».proof.Proof.Gen.KernelIdeal.Frame
import proofs.«153316_j43207370998446_1_alg».proof.Proof.Gen.ReferenceIdeal.Read
import proofs.«153316_j43207370998446_1_alg».proof.Proof.Region3
import proofs.«153316_j43207370998446_1_alg».proof.Proof.BiasRow
import proofs.«153316_j43207370998446_1_alg».proof.Proof.Stage2

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the buffers read by this stretch hold at its entry -/

set_option maxHeartbeats 4000000 in
theorem W6_v1 (c : Dev nD) : W6 m ρ c (Proc.devRef .tc main_v1) = Cert.ReferenceIdeal.Read.val_main_v1 (F := Ideal) (m ((c : Thread nD τ).loc main_arg1)) :=
  (W6_of_ne m ρ c main_v1 (by decide)).trans (by
    show StableHlo.after hostOps2 (W4 m ρ c) (Proc.devRef .tc main_v1) = _
    after_results_simp
    exact W4_v1 m ρ c)

set_option maxHeartbeats 4000000 in
theorem W6_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (by
    show StableHlo.after hostOps2 (W4 m ρ c) (Proc.devRef .tc main_v3) = _
    after_results_simp
    exact W4_v3 m ρ c)

set_option maxHeartbeats 4000000 in
theorem W2_arg12 (c : Dev nD) : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results_simp <;> rfl)

set_option maxHeartbeats 4000000 in
theorem W4_arg12 (c : Dev nD) : W4 m ρ c (Proc.devRef .tc main_arg12) = (m ((c : Thread nD τ).loc main_arg12)) :=
  (W4_of_ne m ρ c main_arg12 (by decide)).trans (by
    show StableHlo.after hostOps1 (W2 m ρ c) (Proc.devRef .tc main_arg12) = _
    after_results_simp
    exact W2_arg12 m ρ c)

set_option maxHeartbeats 4000000 in
theorem W6_arg12 (c : Dev nD) : W6 m ρ c (Proc.devRef .tc main_arg12) = (m ((c : Thread nD τ).loc main_arg12)) :=
  (W6_of_ne m ρ c main_arg12 (by decide)).trans (by
    show StableHlo.after hostOps2 (W4 m ρ c) (Proc.devRef .tc main_arg12) = _
    after_results_simp
    exact W4_arg12 m ρ c)

set_option maxHeartbeats 4000000 in
theorem W2_arg13 (c : Dev nD) : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results_simp <;> rfl)

set_option maxHeartbeats 4000000 in
theorem W4_arg13 (c : Dev nD) : W4 m ρ c (Proc.devRef .tc main_arg13) = (m ((c : Thread nD τ).loc main_arg13)) :=
  (W4_of_ne m ρ c main_arg13 (by decide)).trans (by
    show StableHlo.after hostOps1 (W2 m ρ c) (Proc.devRef .tc main_arg13) = _
    after_results_simp
    exact W2_arg13 m ρ c)

set_option maxHeartbeats 4000000 in
theorem W6_arg13 (c : Dev nD) : W6 m ρ c (Proc.devRef .tc main_arg13) = (m ((c : Thread nD τ).loc main_arg13)) :=
  (W6_of_ne m ρ c main_arg13 (by decide)).trans (by
    show StableHlo.after hostOps2 (W4 m ρ c) (Proc.devRef .tc main_arg13) = _
    after_results_simp
    exact W4_arg13 m ρ c)

set_option maxHeartbeats 4000000 in
theorem W2_arg14 (c : Dev nD) : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    after_results_simp <;> rfl)

set_option maxHeartbeats 4000000 in
theorem W4_arg14 (c : Dev nD) : W4 m ρ c (Proc.devRef .tc main_arg14) = (m ((c : Thread nD τ).loc main_arg14)) :=
  (W4_of_ne m ρ c main_arg14 (by decide)).trans (by
    show StableHlo.after hostOps1 (W2 m ρ c) (Proc.devRef .tc main_arg14) = _
    after_results_simp
    exact W2_arg14 m ρ c)

set_option maxHeartbeats 4000000 in
theorem W6_arg14 (c : Dev nD) : W6 m ρ c (Proc.devRef .tc main_arg14) = (m ((c : Thread nD τ).loc main_arg14)) :=
  (W6_of_ne m ρ c main_arg14 (by decide)).trans (by
    show StableHlo.after hostOps2 (W4 m ρ c) (Proc.devRef .tc main_arg14) = _
    after_results_simp
    exact W4_arg14 m ρ c)

/-! ## What the stretch computes for the region's five operands -/

set_option maxHeartbeats 4000000 in
theorem V7_v68 (c : Dev nD) : V7 m ρ c main_v68 = Cert.ReferenceIdeal.Read.val_main_v70 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v68) = _
  after_results_simp
  rw [W6_v1 m ρ c, W6_v3 m ρ c, stage2 m ρ c]
  refine (Cert.Bridge.truncf_id _ _).trans ?_
  rfl

set_option maxHeartbeats 4000000 in
theorem V7_v69 (c : Dev nD) : V7 m ρ c main_v69 = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v69) = _
  after_results_simp
  rw [stage2 m ρ c]
  exact Cert.Bridge.truncf_id _ _

set_option maxHeartbeats 4000000 in
theorem V7_v71 (c : Dev nD) : V7 m ρ c main_v71 = Cert.ReferenceIdeal.Read.val_main_v71 (F := Ideal) (m ((c : Thread nD τ).loc main_arg12)) := by
  show StableHlo.after hostOps3 (W6 m ρ c) (Proc.devRef .tc main_v71) = _
  after_results_simp
  rw [W6_arg12 m ρ c]
  refine (Cert.Bridge.truncf_id _ _).trans ?_
  rfl

set_option maxHeartbeats 4000000 in
theorem V7_v73 (c : Dev nD) : V7 m ρ c main_v73 = Cert.ReferenceIdeal.Read.val_main_v73 (F := Ideal) (m ((c : Thread nD τ).loc main_arg13)) := by
  show StableHlo.after hostOps3 (W6 m ρ c) (Proc.devRef .tc main_v73) = _
  after_results_simp
  rw [W6_arg13 m ρ c]
  refine (Cert.Bridge.truncf_id _ _).trans ?_
  rfl

set_option maxHeartbeats 4000000 in
theorem V7_v74 (c : Dev nD) : V7 m ρ c main_v74 = Cert.ReferenceIdeal.Read.val_main_v76 (F := Ideal) (m ((c : Thread nD τ).loc main_arg14)) := by
  show StableHlo.after hostOps3 (W6 m ρ c) (Proc.devRef .tc main_v74) = _
  after_results_simp
  rw [W6_arg14 m ρ c]
  exact Cert.Bridge.bias_row128 _

set_option maxHeartbeats 4000000 in
/-- After region 3 its result buffer holds the host program's layer of the arguments. -/
theorem stage3 (c : Dev nD) : W8 m ρ c (Proc.devRef .tc main_v75)
    = Cert.ReferenceIdeal.Read.val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ?_
  rw [Region3.final (V7 m ρ) c, V7_v68 m ρ c, V7_v69 m ρ c, V7_v71 m ρ c, V7_v73 m ρ c, V7_v74 m ρ c]
  rfl

end Cert.KernelIdeal.Chain

end
-- ==== Proof.Stage4.lean ====
/-
  The mean pool and the classifier head, in the host program's words.  The last stretch of host operations sums the
  fourth layer's rows per graph (scatter-add by the graph index into zeros), counts the rows of each graph the same
  way, divides the sums by max(count, 1), and prepares the head's transposed weights and bias rows: what the host
  program computes, the narrowing to 16-bit floats being the identity on exact reals.  Region 4 then leaves the head
  of those arrays in the result buffer: the host program's result, term for term.
-/
import proofs.«153316_j43207370998446_1_alg».proof.Proof.Gen.KernelIdeal.Frame
import proofs.«153316_j43207370998446_1_alg».proof.Proof.Gen.ReferenceIdeal.Read
import proofs.«153316_j43207370998446_1_alg».proof.Proof.Region4
import proofs.«153316_j43207370998446_1_alg».proof.Proof.BiasRow
import proofs.«153316_j43207370998446_1_alg».proof.Proof.Stage3

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the buffers read by this stretch hold at its entry -/

set_option maxHeartbeats 4000000 in
theorem W2_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results_simp <;> rfl)

set_option maxHeartbeats 4000000 in
theorem W4_arg2 (c : Dev nD) : W4 m ρ c (Proc.devRef .tc main_arg2) = (m ((c : Thread nD τ).loc main_arg2)) :=
  (W4_of_ne m ρ c main_arg2 (by decide)).trans (by
    show StableHlo.after hostOps1 (W2 m ρ c) (Proc.devRef .tc main_arg2) = _
    after_results_simp
    exact W2_arg2 m ρ c)

set_option maxHeartbeats 4000000 in
theorem W6_arg2 (c : Dev nD) : W6 m ρ c (Proc.devRef .tc main_arg2) = (m ((c : Thread nD τ).loc main_arg2)) :=
  (W6_of_ne m ρ c main_arg2 (by decide)).trans (by
    show StableHlo.after hostOps2 (W4 m ρ c) (Proc.devRef .tc main_arg2) = _
    after_results_simp
    exact W4_arg2 m ρ c)

set_option maxHeartbeats 4000000 in
theorem W8_arg2 (c : Dev nD) : W8 m ρ c (Proc.devRef .tc main_arg2) = (m ((c : Thread nD τ).loc main_arg2)) :=
  (W8_of_ne m ρ c main_arg2 (by decide)).trans (by
    show StableHlo.after hostOps3 (W6 m ρ c) (Proc.devRef .tc main_arg2) = _
    after_results_simp
    exact W6_arg2 m ρ c)

set_option maxHeartbeats 4000000 in
theorem W2_arg15 (c : Dev nD) : W2 m ρ c (Proc.devRef .tc main_arg15) = (m ((c : Thread nD τ).loc main_arg15)) :=
  (W2_of_ne m ρ c main_arg15 (by decide)).trans (by
    show StableHlo.after hostOps0 (W0 m ρ c) (Proc.devRef .tc main_arg15) = _
    after_results_simp <;> rfl)

set_option maxHeartbeats 4000000 in
theorem W4_arg15 (c : Dev nD) : W4 m ρ c (Proc.devRef .tc main_arg15) = (m ((c : Thread nD τ).loc main_arg15)) :=
  (W4_of_ne m ρ c main_arg15 (by decide)).trans (by
    show StableHlo.after hostOps1 (W2 m ρ c) (Proc.devRef .tc main_arg15) = _
    after_results_simp
    exact W2_arg15 m ρ c)

set_option maxHeartbeats 4000000 in
theorem W6_arg15 (c : Dev nD) : W6 m ρ c (Proc.devRef .tc main_arg15) = (m ((c : Thread nD τ).loc main_arg15)) :=
  (W6_of_ne m ρ c main_arg15 (by decide)).trans (by
    show StableHlo.after hostOps2 (W4 m ρ c) (Proc.devRef .tc main_arg15) = _
    after_results_simp
    exact W4_arg15 m ρ c)

set_option maxHeartbeats 4000000 in
theorem W8_arg15 (c : Dev nD) : W8 m ρ c (Proc.devRef .tc main_arg15) = (m ((c : Thread nD τ).loc main_arg15)) :=
  (W8_of_ne m ρ c main_arg15 (by decide)).trans (by
    show StableHlo.after hostOps3 (W6 m ρ c) (Proc.devRef .tc main_arg15) = _
    after_results_simp
    exact W6_arg15 m ρ c)

set_option maxHeartbeats 4000000 in
theorem W2_arg16 (c : Dev nD) : W2 m ρ c (Proc.devRef .tc main_arg16) = (m ((c : Thread nD τ).loc main_arg16)) :=
  (W2_of_ne m ρ c main_arg16 (by decide)).trans (by
    show StableHlo.after hostOps0 (W0 m ρ c) (Proc.devRef .tc main_arg16) = _
    after_results_simp <;> rfl)

set_option maxHeartbeats 4000000 in
theorem W4_arg16 (c : Dev nD) : W4 m ρ c (Proc.devRef .tc main_arg16) = (m ((c : Thread nD τ).loc main_arg16)) :=
  (W4_of_ne m ρ c main_arg16 (by decide)).trans (by
    show StableHlo.after hostOps1 (W2 m ρ c) (Proc.devRef .tc main_arg16) = _
    after_results_simp
    exact W2_arg16 m ρ c)

set_option maxHeartbeats 4000000 in
theorem W6_arg16 (c : Dev nD) : W6 m ρ c (Proc.devRef .tc main_arg16) = (m ((c : Thread nD τ).loc main_arg16)) :=
  (W6_of_ne m ρ c main_arg16 (by decide)).trans (by
    show StableHlo.after hostOps2 (W4 m ρ c) (Proc.devRef .tc main_arg16) = _
    after_results_simp
    exact W4_arg16 m ρ c)

set_option maxHeartbeats 4000000 in
theorem W8_arg16 (c : Dev nD) : W8 m ρ c (Proc.devRef .tc main_arg16) = (m ((c : Thread nD τ).loc main_arg16)) :=
  (W8_of_ne m ρ c main_arg16 (by decide)).trans (by
    show StableHlo.after hostOps3 (W6 m ρ c) (Proc.devRef .tc main_arg16) = _
    after_results_simp
    exact W6_arg16 m ρ c)

set_option maxHeartbeats 4000000 in
theorem W2_arg17 (c : Dev nD) : W2 m ρ c (Proc.devRef .tc main_arg17) = (m ((c : Thread nD τ).loc main_arg17)) :=
  (W2_of_ne m ρ c main_arg17 (by decide)).trans (by
    show StableHlo.after hostOps0 (W0 m ρ c) (Proc.devRef .tc main_arg17) = _
    after_results_simp <;> rfl)

set_option maxHeartbeats 4000000 in
theorem W4_arg17 (c : Dev nD) : W4 m ρ c (Proc.devRef .tc main_arg17) = (m ((c : Thread nD τ).loc main_arg17)) :=
  (W4_of_ne m ρ c main_arg17 (by decide)).trans (by
    show StableHlo.after hostOps1 (W2 m ρ c) (Proc.devRef .tc main_arg17) = _
    after_results_simp
    exact W2_arg17 m ρ c)

set_option maxHeartbeats 4000000 in
theorem W6_arg17 (c : Dev nD) : W6 m ρ c (Proc.devRef .tc main_arg17) = (m ((c : Thread nD τ).loc main_arg17)) :=
  (W6_of_ne m ρ c main_arg17 (by decide)).trans (by
    show StableHlo.after hostOps2 (W4 m ρ c) (Proc.devRef .tc main_arg17) = _
    after_results_simp
    exact W4_arg17 m ρ c)

set_option maxHeartbeats 4000000 in
theorem W8_arg17 (c : Dev nD) : W8 m ρ c (Proc.devRef .tc main_arg17) = (m ((c : Thread nD τ).loc main_arg17)) :=
  (W8_of_ne m ρ c main_arg17 (by decide)).trans (by
    show StableHlo.after hostOps3 (W6 m ρ c) (Proc.devRef .tc main_arg17) = _
    after_results_simp
    exact W6_arg17 m ρ c)

set_option maxHeartbeats 4000000 in
theorem W2_arg18 (c : Dev nD) : W2 m ρ c (Proc.devRef .tc main_arg18) = (m ((c : Thread nD τ).loc main_arg18)) :=
  (W2_of_ne m ρ c main_arg18 (by decide)).trans (by
    show StableHlo.after hostOps0 (W0 m ρ c) (Proc.devRef .tc main_arg18) = _
    after_results_simp <;> rfl)

set_option maxHeartbeats 4000000 in
theorem W4_arg18 (c : Dev nD) : W4 m ρ c (Proc.devRef .tc main_arg18) = (m ((c : Thread nD τ).loc main_arg18)) :=
  (W4_of_ne m ρ c main_arg18 (by decide)).trans (by
    show StableHlo.after hostOps1 (W2 m ρ c) (Proc.devRef .tc main_arg18) = _
    after_results_simp
    exact W2_arg18 m ρ c)

set_option maxHeartbeats 4000000 in
theorem W6_arg18 (c : Dev nD) : W6 m ρ c (Proc.devRef .tc main_arg18) = (m ((c : Thread nD τ).loc main_arg18)) :=
  (W6_of_ne m ρ c main_arg18 (by decide)).trans (by
    show StableHlo.after hostOps2 (W4 m ρ c) (Proc.devRef .tc main_arg18) = _
    after_results_simp
    exact W4_arg18 m ρ c)

set_option maxHeartbeats 4000000 in
theorem W8_arg18 (c : Dev nD) : W8 m ρ c (Proc.devRef .tc main_arg18) = (m ((c : Thread nD τ).loc main_arg18)) :=
  (W8_of_ne m ρ c main_arg18 (by decide)).trans (by
    show StableHlo.after hostOps3 (W6 m ρ c) (Proc.devRef .tc main_arg18) = _
    after_results_simp
    exact W6_arg18 m ρ c)

/-! ## What the stretch computes for the region's five operands -/

set_option maxHeartbeats 4000000 in
theorem V9_v88 (c : Dev nD) : V9 m ρ c main_v88 = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps4 (W8 m ρ c) (Proc.devRef .tc main_v88) = _
  after_results_simp
  rw [W8_arg2 m ρ c, stage3 m ρ c]
  refine (Cert.Bridge.truncf_id _ _).trans ?_
  rfl

set_option maxHeartbeats 4000000 in
theorem V9_v90 (c : Dev nD) : V9 m ρ c main_v90 = Cert.ReferenceIdeal.Read.val_main_v91 (F := Ideal) (m ((c : Thread nD τ).loc main_arg15)) := by
  show StableHlo.after hostOps4 (W8 m ρ c) (Proc.devRef .tc main_v90) = _
  after_results_simp
  rw [W8_arg15 m ρ c]
  refine (Cert.Bridge.truncf_id _ _).trans ?_
  rfl

set_option maxHeartbeats 4000000 in
theorem V9_v93 (c : Dev nD) : V9 m ρ c main_v93 = Cert.ReferenceIdeal.Read.val_main_v93 (F := Ideal) (m ((c : Thread nD τ).loc main_arg16)) := by
  show StableHlo.after hostOps4 (W8 m ρ c) (Proc.devRef .tc main_v93) = _
  after_results_simp
  rw [W8_arg16 m ρ c]
  exact Cert.Bridge.bias_row64 _

set_option maxHeartbeats 4000000 in
theorem V9_v92 (c : Dev nD) : V9 m ρ c main_v92 = Cert.ReferenceIdeal.Read.val_main_v96 (F := Ideal) (m ((c : Thread nD τ).loc main_arg17)) := by
  show StableHlo.after hostOps4 (W8 m ρ c) (Proc.devRef .tc main_v92) = _
  after_results_simp
  rw [W8_arg17 m ρ c]
  refine (Cert.Bridge.truncf_id _ _).trans ?_
  rfl

set_option maxHeartbeats 4000000 in
theorem V9_v94 (c : Dev nD) : V9 m ρ c main_v94 = Cert.ReferenceIdeal.Read.val_main_v98 (F := Ideal) (m ((c : Thread nD τ).loc main_arg18)) := by
  show StableHlo.after hostOps4 (W8 m ρ c) (Proc.devRef .tc main_v94) = _
  after_results_simp
  rw [W8_arg18 m ρ c]
  exact Cert.Bridge.bias_row10 _

set_option maxHeartbeats 4000000 in
/-- After region 4 the program's result buffer holds the host program's result of the arguments. -/
theorem stage4 (c : Dev nD) : W10 m ρ c (Proc.devRef .tc main_v95)
    = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W10_arr m ρ c 5).trans ?_
  rw [Region4.final (V9 m ρ) c, V9_v88 m ρ c, V9_v90 m ρ c, V9_v93 m ρ c, V9_v92 m ρ c, V9_v94 m ρ c]
  rfl

end Cert.KernelIdeal.Chain

end
-- ==== Proof.lean ====
/-
  A four-layer graph convolution network with a mean pool and a two-layer classifier head, computed two ways.

  The kernel program computes each layer's dense part, agg · WRᵀ + h · WSᵀ + b (with max(·, 0) after the first
  three layers), in a kernel over 25 blocks of 4000 node rows, and the head (pooled · W1ᵀ + b1) · W2ᵀ + b2 in a
  one-point kernel; the neighbour sums (gather and scatter-add over the 1.6 million edges), the transposes and the
  mean pool (scatter-add by graph index, divided by max(count, 1)) are host operations between the kernels.  The
  host program computes the same expressions over whole arrays.

  Read over the exact extended reals the two programs are the same expression of the arguments, operation for
  operation: a narrowing of a 32-bit to a 16-bit float is the identity; a kernel's matrix product into a zero
  accumulator and the host's dot product are the same sum over the contracted axis; and row r of a layer reads only
  row r of its two feature arrays, so the 25 row blocks of a layer's result are the blocks of the whole-array layer
  and together cover it.  No sum is reordered and no factor is moved across a sum, so the equality holds at every
  extended-real input: the finiteness precondition is not used.

  The three frames: the two kernel programs terminate without a fault and leave their arguments as launched (the
  generated frame of the five regions and the host stretches between them); the host program's frame is its run with
  the result dropped.  The idealization rewrote no operation, so its preservation claim is trivial.
-/
import proofs.«153316_j43207370998446_1_alg».proof.Defs
import proofs.«153316_j43207370998446_1_alg».proof.Proof.Gen.Kernel
import proofs.«153316_j43207370998446_1_alg».proof.Proof.Gen.Kernel.Skeleton
import proofs.«153316_j43207370998446_1_alg».proof.Proof.Gen.Kernel.Launch
import proofs.«153316_j43207370998446_1_alg».proof.Proof.Gen.Kernel.Points
import proofs.«153316_j43207370998446_1_alg».proof.Proof.Gen.Kernel.Frame
import proofs.«153316_j43207370998446_1_alg».proof.Proof.Gen.KernelIdeal
import proofs.«153316_j43207370998446_1_alg».proof.Proof.Gen.KernelIdeal.Skeleton
import proofs.«153316_j43207370998446_1_alg».proof.Proof.Gen.KernelIdeal.Launch
import proofs.«153316_j43207370998446_1_alg».proof.Proof.Gen.KernelIdeal.Points
import proofs.«153316_j43207370998446_1_alg».proof.Proof.Gen.KernelIdeal.Frame
import proofs.«153316_j43207370998446_1_alg».proof.Proof.Gen.ReferenceIdeal
import proofs.«153316_j43207370998446_1_alg».proof.Proof.Gen.Pre_finite_inputs
import proofs.«153316_j43207370998446_1_alg».proof.Proof.Gen.ReferenceIdeal.Run
import proofs.«153316_j43207370998446_1_alg».proof.Proof.Gen.ReferenceIdeal.Read
import proofs.«153316_j43207370998446_1_alg».proof.Proof.RunValue
import proofs.«153316_j43207370998446_1_alg».proof.Proof.Stage4
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does the kernel program read over the exact reals. -/
theorem frame_kernelIdeal : Cert.frame_KernelIdeal := fun m ρ _ => Cert.KernelIdeal.Gen.frame m ρ

/-- The host program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the host program's expression of those
    arguments in their result buffers: the kernel program by the chain of its five regions, the host program by its
    run read back. -/
theorem algebraic : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Chain.stage4 m ρ c), (h c).2⟩)
      (Cert.KernelIdeal.RunValue.run_value m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [(h c).1, Cert.ReferenceIdeal.Read.val_main_v100_eq, h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
